-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v98)) (v1 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_v97) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x7 : Shape := ⟨2, ![2, 7]⟩
abbrev S7 : Shape := ⟨1, ![7]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_
  bcast_S_S2x7 : S_.BroadcastsInDim S2x7 (![] : Fin 0 → Fin S2x7.rank)
  reducesTo_S2x7_S_d0_1 : S2x7.ReducesTo [0, 1] S_
  bcast_S_S7 : S_.BroadcastsInDim S7 (![] : Fin 0 → Fin S7.rank)
  reducesTo_S7_S_d0 : S7.ReducesTo [0] S_

variable [Facts]

def fn_part2 {F : FTy → Type} [FloatOps F] (main_arg8 : FVec F S2x7 .f32) (main_arg9 : FVec F S7 .f32) (main_v33 : IVec S_ 1) : IVec S_ 1 :=
  let main_v34 : FVec F S2x7 .f32 := Host.absf main_arg8
  let main_cst_12 : FVec F S_ .f32 := constant S_ .f32 0x7F800000#32
  let main_v35 : FVec F S2x7 .f32 := broadcastInDim S2x7 ![] bcast_S_S2x7 main_cst_12
  let main_v36 : IVec S2x7 1 := cmpf .olt main_v34 main_v35
  let main_c_13 : IVec S_ 1 := constantI S_ 1 1#1
  let main_v37 : IVec S_ 1 := (fun x v => Host.reduce IntOp.andi x v reducesTo_S2x7_S_d0_1 h_S_) main_v36 main_c_13
  let main_v38 : IVec S_ 1 := andi main_v33 main_v37
  let main_v39 : FVec F S7 .f32 := Host.absf main_arg9
  let main_cst_14 : FVec F S_ .f32 := constant S_ .f32 0x7F800000#32
  let main_v40 : FVec F S7 .f32 := broadcastInDim S7 ![] bcast_S_S7 main_cst_14
  let main_v41 : IVec S7 1 := cmpf .olt main_v39 main_v40
  let main_c_15 : IVec S_ 1 := constantI S_ 1 1#1
  let main_v42 : IVec S_ 1 := (fun x v => Host.reduce IntOp.andi x v reducesTo_S7_S_d0 h_S_) main_v41 main_c_15
  let main_v43 : IVec S_ 1 := andi main_v38 main_v42
  main_v43

def fn_part1 {F : FTy → Type} [FloatOps F] (main_arg5 : FVec F S4 .f32) (main_arg6 : FVec F S4x2 .f32) (main_arg7 : FVec F S2 .f32) (main_arg8 : FVec F S2x7 .f32) (main_arg9 : FVec F S7 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4x2 .f32 := Host.absf main_arg6
  let main_cst_8 : FVec F S_ .f32 := constant S_ .f32 0x7F800000#32
  let main_v25 : FVec F S4x2 .f32 := broadcastInDim S4x2 ![] bcast_S_S4x2 main_cst_8
  let main_v26 : IVec S4x2 1 := cmpf .olt main_v24 main_v25
  let main_c_9 : IVec S_ 1 := constantI S_ 1 1#1
  let main_v27 : IVec S_ 1 := (fun x v => Host.reduce IntOp.andi x v reducesTo_S4x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x3200000 32) (main_arg2 : FVec F S128x4 .f32) (main_arg3 : FVec F S4 .f32) (main_arg4 : FVec F S4x4 .f32) (main_arg5 : FVec F S4 .f32) (main_arg6 : FVec F S4x2 .f32) (main_arg7 : FVec F S2 .f32) (main_arg8 : FVec F S2x7 .f32) (main_arg9 : FVec F S7 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x4 .f32 := Host.absf main_arg2
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x4 .f32 := Host.absf main_arg4
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x3200000 : Shape := ⟨2, ![2, 3200000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x7 : Shape := ⟨2, ![2, 7]⟩
abbrev S7 : Shape := ⟨1, ![7]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x4 : Shape := ⟨2, ![100000, 4]⟩
abbrev S10000x128 : Shape := ⟨2, ![10000, 128]⟩
abbrev S10000x4 : Shape := ⟨2, ![10000, 4]⟩
abbrev S3200000x4 : Shape := ⟨2, ![3200000, 4]⟩
abbrev S1x4 : Shape := ⟨2, ![1, 4]⟩
abbrev S100000x2 : Shape := ⟨2, ![100000, 2]⟩
abbrev S10000x2 : Shape := ⟨2, ![10000, 2]⟩
abbrev S3200000x2 : Shape := ⟨2, ![3200000, 2]⟩
abbrev S1x2 : Shape := ⟨2, ![1, 2]⟩
abbrev S100000x7 : Shape := ⟨2, ![100000, 7]⟩
abbrev S10000x7 : Shape := ⟨2, ![10000, 7]⟩
abbrev S1x7 : Shape := ⟨2, ![1, 7]⟩

abbrev nBuf : Space → Nat
  | .hbm => 132
  | .vmem => 36
  | .smem => 0
  | _ => 0

abbrev hbmTy0_0 (i : Nat) : BufTy := match i % 128 with
  | 0 => ⟨S100000x128, .f32⟩
  | 1 => ⟨S2x3200000, .i32⟩
  | 2 => ⟨S128x4, .f32⟩
  | 3 => ⟨S4, .f32⟩
  | 4 => ⟨S4x4, .f32⟩
  | 5 => ⟨S4, .f32⟩
  | 6 => ⟨S4x2, .f32⟩
  | 7 => ⟨S2, .f32⟩
  | 8 => ⟨S2x7, .f32⟩
  | 9 => ⟨S7, .f32⟩
  | 10 => ⟨S1x3200000, .i32⟩
  | 11 => ⟨S3200000, .i32⟩
  | 12 => ⟨S1x3200000, .i32⟩
  | 13 => ⟨S3200000, .i32⟩
  | 14 => ⟨S_, .f32⟩
  | 15 => ⟨S3200000, .f32⟩
  | 16 => ⟨S_, .f32⟩
  | 17 => ⟨S100000, .f32⟩
  | 18 => ⟨S_, .i32⟩
  | 19 => ⟨S3200000, .i32⟩
  | 20 => ⟨S3200000, .i1⟩
  | 21 => ⟨S_, .i32⟩
  | 22 => ⟨S3200000, .i32⟩
  | 23 => ⟨S3200000, .i32⟩
  | 24 => ⟨S3200000, .i32⟩
  | 25 => ⟨S3200000x1, .i32⟩
  | 26 => ⟨S100000, .f32⟩
  | 27 => ⟨S100000, .f32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S3200000, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000, .f32⟩
  | 46 => ⟨S3200000, .f32⟩
  | 47 => ⟨S3200000x1, .f32⟩
  | 48 => ⟨S100000, .f32⟩
  | 49 => ⟨S100000x1, .f32⟩
  | 50 => ⟨S100000x4, .f32⟩
  | 51 => ⟨S_, .i32⟩
  | 52 => ⟨S3200000, .i32⟩
  | 53 => ⟨S3200000, .i1⟩
  | 54 => ⟨S_, .i32⟩
  | 55 => ⟨S3200000, .i32⟩
  | 56 => ⟨S3200000, .i32⟩
  | 57 => ⟨S3200000, .i32⟩
  | 58 => ⟨S3200000x1, .i32⟩
  | 59 => ⟨S3200000x4, .f32⟩
  | 60 => ⟨S3200000x4, .f32⟩
  | 61 => ⟨S3200000x4, .f32⟩
  | 62 => ⟨S_, .f32⟩
  | 63 => ⟨S100000x4, .f32⟩
  | 64 => ⟨S_, .i32⟩
  | 65 => ⟨S3200000, .i32⟩
  | 66 => ⟨S3200000, .i1⟩
  | 67 => ⟨S_, .i32⟩
  | 68 => ⟨S3200000, .i32⟩
  | 69 => ⟨S3200000, .i32⟩
  | 70 => ⟨S3200000, .i32⟩
  | 71 => ⟨S3200000x1, .i32⟩
  | 72 => ⟨S100000x4, .f32⟩
  | 73 => ⟨S100000x4, .f32⟩
  | 74 => ⟨S100000x4, .f32⟩
  | 75 => ⟨S100000x4, .f32⟩
  | 76 => ⟨S100000x4, .f32⟩
  | 77 => ⟨S100000x4, .f32⟩
  | 78 => ⟨S_, .i32⟩
  | 79 => ⟨S3200000, .i32⟩
  | 80 => ⟨S3200000, .i1⟩
  | 81 => ⟨S_, .i32⟩
  | 82 => ⟨S3200000, .i32⟩
  | 83 => ⟨S3200000, .i32⟩
  | 84 => ⟨S3200000, .i32⟩
  | 85 => ⟨S3200000x1, .i32⟩
  | 86 => ⟨S3200000x4, .f32⟩
  | 87 => ⟨S3200000x4, .f32⟩
  | 88 => ⟨S3200000x4, .f32⟩
  | 89 => ⟨S_, .f32⟩
  | 90 => ⟨S100000x4, .f32⟩
  | 91 => ⟨S_, .i32⟩
  | 92 => ⟨S3200000, .i32⟩
  | 93 => ⟨S3200000, .i1⟩
  | 94 => ⟨S_, .i32⟩
  | 95 => ⟨S3200000, .i32⟩
  | 96 => ⟨S3200000, .i32⟩
  | 97 => ⟨S3200000, .i32⟩
  | 98 => ⟨S3200000x1, .i32⟩
  | 99 => ⟨S100000x4, .f32⟩
  | 100 => ⟨S100000x4, .f32⟩
  | 101 => ⟨S100000x4, .f32⟩
  | 102 => ⟨S100000x4, .f32⟩
  | 103 => ⟨S100000x4, .f32⟩
  | 104 => ⟨S100000x2, .f32⟩
  | 105 => ⟨S_, .i32⟩
  | 106 => ⟨S3200000, .i32⟩
  | 107 => ⟨S3200000, .i1⟩
  | 108 => ⟨S_, .i32⟩
  | 109 => ⟨S3200000, .i32⟩
  | 110 => ⟨S3200000, .i32⟩
  | 111 => ⟨S3200000, .i32⟩
  | 112 => ⟨S3200000x1, .i32⟩
  | 113 => ⟨S3200000x2, .f32⟩
  | 114 => ⟨S3200000x2, .f32⟩
  | 115 => ⟨S3200000x2, .f32⟩
  | 116 => ⟨S_, .f32⟩
  | 117 => ⟨S100000x2, .f32⟩
  | 118 => ⟨S_, .i32⟩
  | 119 => ⟨S3200000, .i32⟩
  | 120 => ⟨S3200000, .i1⟩
  | 121 => ⟨S_, .i32⟩
  | 122 => ⟨S3200000, .i32⟩
  | 123 => ⟨S3200000, .i32⟩
  | 124 => ⟨S3200000, .i32⟩
  | 125 => ⟨S3200000x1, .i32⟩
  | 126 => ⟨S100000x2, .f32⟩
  | 127 => ⟨S100000x2, .f32⟩
  | _ => ⟨S100000x128, .f32⟩

abbrev hbmTy0_1 (i : Nat) : BufTy := match i % 128 with
  | 0 => ⟨S100000x2, .f32⟩
  | 1 => ⟨S100000x2, .f32⟩
  | 2 => ⟨S100000x2, .f32⟩
  | 3 => ⟨S100000x7, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x4, .f32⟩
  | .local _ .vmem, ⟨3, _⟩ => ⟨S10000x4, .f32⟩
  | .local _ .vmem, ⟨4, _⟩ => ⟨S10000x4, .f32⟩
  | .local _ .vmem, ⟨5, _⟩ => ⟨S10000x4, .f32⟩
  | .local _ .vmem, ⟨6, _⟩ => ⟨S10000x4, .f32⟩
  | .local _ .vmem, ⟨7, _⟩ => ⟨S4, .f32⟩
  | .local _ .vmem, ⟨8, _⟩ => ⟨S10000x4, .f32⟩
  | .local _ .vmem, ⟨9, _⟩ => ⟨S10000x4, .f32⟩
  | .local _ .vmem, ⟨10, _⟩ => ⟨S10000x4, .f32⟩
  | .local _ .vmem, ⟨11, _⟩ => ⟨S10000x4, .f32⟩
  | .local _ .vmem, ⟨12, _⟩ => ⟨S4x4, .f32⟩
  | .local _ .vmem, ⟨13, _⟩ => ⟨S10000x4, .f32⟩
  | .local _ .vmem, ⟨14, _⟩ => ⟨S10000x4, .f32⟩
  | .local _ .vmem, ⟨15, _⟩ => ⟨S10000x4, .f32⟩
  | .local _ .vmem, ⟨16, _⟩ => ⟨S10000x4, .f32⟩
  | .local _ .vmem, ⟨17, _⟩ => ⟨S4, .f32⟩
  | .local _ .vmem, ⟨18, _⟩ => ⟨S10000x4, .f32⟩
  | .local _ .vmem, ⟨19, _⟩ => ⟨S10000x4, .f32⟩
  | .local _ .vmem, ⟨20, _⟩ => ⟨S10000x4, .f32⟩
  | .local _ .vmem, ⟨21, _⟩ => ⟨S10000x4, .f32⟩
  | .local _ .vmem, ⟨22, _⟩ => ⟨S4x2, .f32⟩
  | .local _ .vmem, ⟨23, _⟩ => ⟨S10000x2, .f32⟩
  | .local _ .vmem, ⟨24, _⟩ => ⟨S10000x2, .f32⟩
  | .local _ .vmem, ⟨25, _⟩ => ⟨S10000x2, .f32⟩
  | .local _ .vmem, ⟨26, _⟩ => ⟨S10000x2, .f32⟩
  | .local _ .vmem, ⟨27, _⟩ => ⟨S2, .f32⟩
  | .local _ .vmem, ⟨28, _⟩ => ⟨S10000x2, .f32⟩
  | .local _ .vmem, ⟨29, _⟩ => ⟨S10000x2, .f32⟩
  | .local _ .vmem, ⟨30, _⟩ => ⟨S10000x2, .f32⟩
  | .local _ .vmem, ⟨31, _⟩ => ⟨S10000x2, .f32⟩
  | .local _ .vmem, ⟨32, _⟩ => ⟨S2x7, .f32⟩
  | .local _ .vmem, ⟨33, _⟩ => ⟨S7, .f32⟩
  | .local _ .vmem, ⟨34, _⟩ => ⟨S10000x7, .f32⟩
  | .local _ .vmem, ⟨35, _⟩ => ⟨S10000x7, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_16 : Ref sig .tc := ⟨.hbm, 105, rfl⟩
abbrev main_v77 : Ref sig .tc := ⟨.hbm, 106, rfl⟩
abbrev main_v78 : Ref sig .tc := ⟨.hbm, 107, rfl⟩
abbrev main_c_17 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_18 : Ref sig .tc := ⟨.hbm, 116, rfl⟩
abbrev main_v86 : Ref sig .tc := ⟨.hbm, 117, rfl⟩
abbrev main_c_19 : Ref sig .tc := ⟨.hbm, 118, rfl⟩
abbrev main_v87 : Ref sig .tc := ⟨.hbm, 119, rfl⟩
abbrev main_v88 : Ref sig .tc := ⟨.hbm, 120, rfl⟩
abbrev main_c_20 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x4 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x4 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x4 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x2 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2x7 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S7 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x7 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x4_S128x4_0_0 : ∀ a, (![0, 0] : Fin 2 → Nat) a + S128x4.size a ≤ S128x4.size a
  h_S128x4 : 0 < S128x4.numel
  inb_S10000x4_S10000x4_0_0 : ∀ a, (![0, 0] : Fin 2 → Nat) a + S10000x4.size a ≤ S10000x4.size a
  h_S10000x4 : 0 < S10000x4.numel
  bcast_S3200000x1_S3200000x4_0_1 : S3200000x1.BroadcastsInDim S3200000x4 (![0, 1] : Fin 2 → Fin S3200000x4.rank)
  bcast_S_S100000x4 : S_.BroadcastsInDim S100000x4 (![] : Fin 0 → Fin S100000x4.rank)
  bcast_S100000x1_S100000x4_0_1 : S100000x1.BroadcastsInDim S100000x4 (![0, 1] : Fin 2 → Fin S100000x4.rank)
  shapeCasts_S10000x4_S10000x4 : S10000x4.ShapeCasts S10000x4
  inb_S4_S4_0 : ∀ a, (![0] : Fin 1 → Nat) a + S4.size a ≤ S4.size a
  h_S4 : 0 < S4.numel
  shapeCasts_S4_S1x4 : S4.ShapeCasts S1x4
  broadcasts_S1x4_S10000x4 : S1x4.Broadcasts S10000x4
  inb_S4x4_S4x4_0_0 : ∀ a, (![0, 0] : Fin 2 → Nat) a + S4x4.size a ≤ S4x4.size a
  h_S4x4 : 0 < S4x4.numel
  inb_S4x2_S4x2_0_0 : ∀ a, (![0, 0] : Fin 2 → Nat) a + S4x2.size a ≤ S4x2.size a
  h_S4x2 : 0 < S4x2.numel
  inb_S10000x2_S10000x2_0_0 : ∀ a, (![0, 0] : Fin 2 → Nat) a + S10000x2.size a ≤ S10000x2.size a
  h_S10000x2 : 0 < S10000x2.numel
  bcast_S3200000x1_S3200000x2_0_1 : S3200000x1.BroadcastsInDim S3200000x2 (![0, 1] : Fin 2 → Fin S3200000x2.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  shapeCasts_S10000x2_S10000x2 : S10000x2.ShapeCasts S10000x2
  inb_S2_S2_0 : ∀ a, (![0] : Fin 1 → Nat) a + S2.size a ≤ S2.size a
  h_S2 : 0 < S2.numel
  shapeCasts_S2_S1x2 : S2.ShapeCasts S1x2
  broadcasts_S1x2_S10000x2 : S1x2.Broadcasts S10000x2
  inb_S2x7_S2x7_0_0 : ∀ a, (![0, 0] : Fin 2 → Nat) a + S2x7.size a ≤ S2x7.size a
  h_S2x7 : 0 < S2x7.numel
  inb_S7_S7_0 : ∀ a, (![0] : Fin 1 → Nat) a + S7.size a ≤ S7.size a
  h_S7 : 0 < S7.numel
  shapeCasts_S7_S1x7 : S7.ShapeCasts S1x7
  broadcasts_S1x7_S10000x7 : S1x7.Broadcasts S10000x7
  inb_S10000x7_S10000x7_0_0 : ∀ a, (![0, 0] : Fin 2 → Nat) a + S10000x7.size a ≤ S10000x7.size a
  h_S10000x7 : 0 < S10000x7.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x128_S128x4_S10000x4_1_0_0_1_n_n_wf : DotDims.WF S10000x128 S128x4 S10000x4 [1] [0] [0] [1] [] []
  gather_S100000x4_S3200000x1_S3200000x4_1_0_n_n_0_1_14_wf : GatherDims.WF S100000x4 S3200000x1 S3200000x4 [1] [0] [] [0] [] 1 ![1, 4]
  scatter_S100000x4_S3200000x1_S3200000x4_1_0_0_1_wf : ScatterDims.WF S100000x4 S3200000x1 S3200000x4 [1] [0] [0] 1
  dot_S10000x4_S4x4_S10000x4_1_0_0_1_n_n_wf : DotDims.WF S10000x4 S4x4 S10000x4 [1] [0] [0] [1] [] []
  dot_S10000x4_S4x2_S10000x2_1_0_0_1_n_n_wf : DotDims.WF S10000x4 S4x2 S10000x2 [1] [0] [0] [1] [] []
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1
  dot_S10000x2_S2x7_S10000x7_1_0_0_1_n_n_wf : DotDims.WF S10000x2 S2x7 S10000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4.size a ≤ S128x4.size a
  hwx0_1 : ∀ i : grid0.Coords, EltTy.bits .f32 = 32 ∨ (Rect.block (s := S128x4) S128x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x4.size a ≤ S100000x4.size a
  hwx0_2 : ∀ i : grid0.Coords, EltTy.bits .f32 = 32 ∨ (Rect.block (s := S100000x4) S10000x4.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x4.size a ≤ S100000x4.size a
  hwx1_0 : ∀ i : grid1.Coords, EltTy.bits .f32 = 32 ∨ (Rect.block (s := S100000x4) S10000x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4.size a ≤ S4.size a
  hwx1_1 : ∀ i : grid1.Coords, EltTy.bits .f32 = 32 ∨ (Rect.block (s := S4) S4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x4.size a ≤ S100000x4.size a
  hwx1_2 : ∀ i : grid1.Coords, EltTy.bits .f32 = 32 ∨ (Rect.block (s := S100000x4) S10000x4.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x4.size a ≤ S100000x4.size a
  hwx2_0 : ∀ i : grid2.Coords, EltTy.bits .f32 = 32 ∨ (Rect.block (s := S100000x4) S10000x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x4.size a ≤ S4x4.size a
  hwx2_1 : ∀ i : grid2.Coords, EltTy.bits .f32 = 32 ∨ (Rect.block (s := S4x4) S4x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x4.size a ≤ S100000x4.size a
  hwx2_2 : ∀ i : grid2.Coords, EltTy.bits .f32 = 32 ∨ (Rect.block (s := S100000x4) S10000x4.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x4.size a ≤ S100000x4.size a
  hwx3_0 : ∀ i : grid3.Coords, EltTy.bits .f32 = 32 ∨ (Rect.block (s := S100000x4) S10000x4.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4.size a ≤ S4.size a
  hwx3_1 : ∀ i : grid3.Coords, EltTy.bits .f32 = 32 ∨ (Rect.block (s := S4) S4.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x4.size a ≤ S100000x4.size a
  hwx3_2 : ∀ i : grid3.Coords, EltTy.bits .f32 = 32 ∨ (Rect.block (s := S100000x4) S10000x4.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x4.size a ≤ S100000x4.size a
  hwx4_0 : ∀ i : grid4.Coords, EltTy.bits .f32 = 32 ∨ (Rect.block (s := S100000x4) S10000x4.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S4x2.size a ≤ S4x2.size a
  hwx4_1 : ∀ i : grid4.Coords, EltTy.bits .f32 = 32 ∨ (Rect.block (s := S4x2) S4x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x2.size a ≤ S100000x2.size a
  hwx4_2 : ∀ i : grid4.Coords, EltTy.bits .f32 = 32 ∨ (Rect.block (s := S100000x2) S10000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x2.size a ≤ S100000x2.size a
  hwx5_0 : ∀ i : grid5.Coords, EltTy.bits .f32 = 32 ∨ (Rect.block (s := S100000x2) S10000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2.size a ≤ S2.size a
  hwx5_1 : ∀ i : grid5.Coords, EltTy.bits .f32 = 32 ∨ (Rect.block (s := S2) S2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x2.size a ≤ S100000x2.size a
  hwx5_2 : ∀ i : grid5.Coords, EltTy.bits .f32 = 32 ∨ (Rect.block (s := S100000x2) S10000x2.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x2.size a ≤ S100000x2.size a
  hwx6_0 : ∀ i : grid6.Coords, EltTy.bits .f32 = 32 ∨ (Rect.block (s := S100000x2) S10000x2.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2x7.size a ≤ S2x7.size a
  hwx6_1 : ∀ i : grid6.Coords, EltTy.bits .f32 = 32 ∨ (Rect.block (s := S2x7) S2x7.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S7.size a ≤ S7.size a
  hwx6_2 : ∀ i : grid6.Coords, EltTy.bits .f32 = 32 ∨ (Rect.block (s := S7) S7.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x7.size a ≤ S100000x7.size a
  hwx6_3 : ∀ i : grid6.Coords, EltTy.bits .f32 = 32 ∨ (Rect.block (s := S100000x7) S10000x7.size (cc6_transform_3 i) (hinb6_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x128_S128x4_S10000x4_1_0_0_1_n_n : DotDims S10000x128 S128x4 S10000x4 where
  lhsContracting := [1]
  rhsContracting := [0]
  lhsNonContracting := [0]
  rhsNonContracting := [1]
  lhsBatch := []
  rhsBatch := []
  wf := dot_S10000x128_S128x4_S10000x4_1_0_0_1_n_n_wf
def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def dot_S10000x4_S4x4_S10000x4_1_0_0_1_n_n : DotDims S10000x4 S4x4 S10000x4 where
  lhsContracting := [1]
  rhsContracting := [0]
  lhsNonContracting := [0]
  rhsNonContracting := [1]
  lhsBatch := []
  rhsBatch := []
  wf := dot_S10000x4_S4x4_S10000x4_1_0_0_1_n_n_wf
def dot_S10000x4_S4x2_S10000x2_1_0_0_1_n_n : DotDims S10000x4 S4x2 S10000x2 where
  lhsContracting := [1]
  rhsContracting := [0]
  lhsNonContracting := [0]
  rhsNonContracting := [1]
  lhsBatch := []
  rhsBatch := []
  wf := dot_S10000x4_S4x2_S10000x2_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def dot_S10000x2_S2x7_S10000x7_1_0_0_1_n_n : DotDims S10000x2 S2x7 S10000x7 where
  lhsContracting := [1]
  rhsContracting := [0]
  lhsNonContracting := [0]
  rhsNonContracting := [1]
  lhsBatch := []
  rhsBatch := []
  wf := dot_S10000x2_S2x7_S10000x7_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S10000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S10000x4.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v53) S10000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S4x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S10000x4.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S10000x4.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S4.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S10000x4.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v75) S10000x4.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S4x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76) S10000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v96) S10000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v97) S10000x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v97) S10000x2.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S2x7.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S7.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v98) S10000x7.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x7 : Shape := ⟨2, ![2, 7]⟩
abbrev S7 : Shape := ⟨1, ![7]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x4 : Shape := ⟨2, ![100000, 4]⟩
abbrev S3200000x4 : Shape := ⟨2, ![3200000, 4]⟩
abbrev S1x4 : Shape := ⟨2, ![1, 4]⟩
abbrev S100000x2 : Shape := ⟨2, ![100000, 2]⟩
abbrev S3200000x2 : Shape := ⟨2, ![3200000, 2]⟩
abbrev S1x2 : Shape := ⟨2, ![1, 2]⟩
abbrev S100000x7 : Shape := ⟨2, ![100000, 7]⟩
abbrev S1x7 : Shape := ⟨2, ![1, 7]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S2x3200000, .i32⟩
  | 2 => ⟨S128x4, .f32⟩
  | 3 => ⟨S4, .f32⟩
  | 4 => ⟨S4x4, .f32⟩
  | 5 => ⟨S4, .f32⟩
  | 6 => ⟨S4x2, .f32⟩
  | 7 => ⟨S2, .f32⟩
  | 8 => ⟨S2x7, .f32⟩
  | 9 => ⟨S7, .f32⟩
  | 10 => ⟨S1x3200000, .i32⟩
  | 11 => ⟨S3200000, .i32⟩
  | 12 => ⟨S1x3200000, .i32⟩
  | 13 => ⟨S3200000, .i32⟩
  | 14 => ⟨S_, .f32⟩
  | 15 => ⟨S100000, .f32⟩
  | 16 => ⟨S_, .f32⟩
  | 17 => ⟨S3200000, .f32⟩
  | 18 => ⟨S_, .i32⟩
  | 19 => ⟨S3200000, .i32⟩
  | 20 => ⟨S3200000, .i1⟩
  | 21 => ⟨S_, .i32⟩
  | 22 => ⟨S3200000, .i32⟩
  | 23 => ⟨S3200000, .i32⟩
  | 24 => ⟨S3200000, .i32⟩
  | 25 => ⟨S3200000x1, .i32⟩
  | 26 => ⟨S100000, .f32⟩
  | 27 => ⟨S100000, .f32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S3200000, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000, .f32⟩
  | 46 => ⟨S3200000, .f32⟩
  | 47 => ⟨S3200000x1, .f32⟩
  | 48 => ⟨S100000, .f32⟩
  | 49 => ⟨S100000x1, .f32⟩
  | 50 => ⟨S100000x4, .f32⟩
  | 51 => ⟨S_, .f32⟩
  | 52 => ⟨S100000x4, .f32⟩
  | 53 => ⟨S_, .i32⟩
  | 54 => ⟨S3200000, .i32⟩
  | 55 => ⟨S3200000, .i1⟩
  | 56 => ⟨S_, .i32⟩
  | 57 => ⟨S3200000, .i32⟩
  | 58 => ⟨S3200000, .i32⟩
  | 59 => ⟨S3200000, .i32⟩
  | 60 => ⟨S3200000x1, .i32⟩
  | 61 => ⟨S3200000x4, .f32⟩
  | 62 => ⟨S3200000x4, .f32⟩
  | 63 => ⟨S3200000x4, .f32⟩
  | 64 => ⟨S_, .i32⟩
  | 65 => ⟨S3200000, .i32⟩
  | 66 => ⟨S3200000, .i1⟩
  | 67 => ⟨S_, .i32⟩
  | 68 => ⟨S3200000, .i32⟩
  | 69 => ⟨S3200000, .i32⟩
  | 70 => ⟨S3200000, .i32⟩
  | 71 => ⟨S3200000x1, .i32⟩
  | 72 => ⟨S100000x4, .f32⟩
  | 73 => ⟨S100000x4, .f32⟩
  | 74 => ⟨S100000x4, .f32⟩
  | 75 => ⟨S100000x4, .f32⟩
  | 76 => ⟨S1x4, .f32⟩
  | 77 => ⟨S100000x4, .f32⟩
  | 78 => ⟨S100000x4, .f32⟩
  | 79 => ⟨S100000x4, .f32⟩
  | 80 => ⟨S100000x4, .f32⟩
  | 81 => ⟨S_, .f32⟩
  | 82 => ⟨S100000x4, .f32⟩
  | 83 => ⟨S_, .i32⟩
  | 84 => ⟨S3200000, .i32⟩
  | 85 => ⟨S3200000, .i1⟩
  | 86 => ⟨S_, .i32⟩
  | 87 => ⟨S3200000, .i32⟩
  | 88 => ⟨S3200000, .i32⟩
  | 89 => ⟨S3200000, .i32⟩
  | 90 => ⟨S3200000x1, .i32⟩
  | 91 => ⟨S3200000x4, .f32⟩
  | 92 => ⟨S3200000x4, .f32⟩
  | 93 => ⟨S3200000x4, .f32⟩
  | 94 => ⟨S_, .i32⟩
  | 95 => ⟨S3200000, .i32⟩
  | 96 => ⟨S3200000, .i1⟩
  | 97 => ⟨S_, .i32⟩
  | 98 => ⟨S3200000, .i32⟩
  | 99 => ⟨S3200000, .i32⟩
  | 100 => ⟨S3200000, .i32⟩
  | 101 => ⟨S3200000x1, .i32⟩
  | 102 => ⟨S100000x4, .f32⟩
  | 103 => ⟨S100000x4, .f32⟩
  | 104 => ⟨S100000x4, .f32⟩
  | 105 => ⟨S100000x4, .f32⟩
  | 106 => ⟨S1x4, .f32⟩
  | 107 => ⟨S100000x4, .f32⟩
  | 108 => ⟨S100000x4, .f32⟩
  | 109 => ⟨S100000x4, .f32⟩
  | 110 => ⟨S100000x2, .f32⟩
  | 111 => ⟨S_, .f32⟩
  | 112 => ⟨S100000x2, .f32⟩
  | 113 => ⟨S_, .i32⟩
  | 114 => ⟨S3200000, .i32⟩
  | 115 => ⟨S3200000, .i1⟩
  | 116 => ⟨S_, .i32⟩
  | 117 => ⟨S3200000, .i32⟩
  | 118 => ⟨S3200000, .i32⟩
  | 119 => ⟨S3200000, .i32⟩
  | 120 => ⟨S3200000x1, .i32⟩
  | 121 => ⟨S3200000x2, .f32⟩
  | 122 => ⟨S3200000x2, .f32⟩
  | 123 => ⟨S3200000x2, .f32⟩
  | 124 => ⟨S_, .i32⟩
  | 125 => ⟨S3200000, .i32⟩
  | 126 => ⟨S3200000, .i1⟩
  | 127 => ⟨S_, .i32⟩
  | _ => ⟨S100000x128, .f32⟩

abbrev hbmTy0_1 (i : Nat) : BufTy := match i % 128 with
  | 0 => ⟨S3200000, .i32⟩
  | 1 => ⟨S3200000, .i32⟩
  | 2 => ⟨S3200000, .i32⟩
  | 3 => ⟨S3200000x1, .i32⟩
  | 4 => ⟨S100000x2, .f32⟩
  | 5 => ⟨S100000x2, .f32⟩
  | 6 => ⟨S100000x2, .f32⟩
  | 7 => ⟨S100000x2, .f32⟩
  | 8 => ⟨S1x2, .f32⟩
  | 9 => ⟨S100000x2, .f32⟩
  | 10 => ⟨S100000x2, .f32⟩
  | 11 => ⟨S100000x2, .f32⟩
  | 12 => ⟨S100000x7, .f32⟩
  | 13 => ⟨S1x7, .f32⟩
  | 14 => ⟨S100000x7, .f32⟩
  | 15 => ⟨S100000x7, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_c_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_c_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_16 : Ref sig .tc := ⟨.hbm, 111, rfl⟩
abbrev main_v83 : Ref sig .tc := ⟨.hbm, 112, rfl⟩
abbrev main_c_17 : Ref sig .tc := ⟨.hbm, 113, rfl⟩
abbrev main_v84 : Ref sig .tc := ⟨.hbm, 114, rfl⟩
abbrev main_v85 : Ref sig .tc := ⟨.hbm, 115, rfl⟩
abbrev main_c_18 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c_19 : Ref sig .tc := ⟨.hbm, 124, rfl⟩
abbrev main_v93 : Ref sig .tc := ⟨.hbm, 125, rfl⟩
abbrev main_v94 : Ref sig .tc := ⟨.hbm, 126, rfl⟩
abbrev main_c_20 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S100000x4 : S_.BroadcastsInDim S100000x4 (![] : Fin 0 → Fin S100000x4.rank)
  bcast_S3200000x1_S3200000x4_0_1 : S3200000x1.BroadcastsInDim S3200000x4 (![0, 1] : Fin 2 → Fin S3200000x4.rank)
  bcast_S100000x1_S100000x4_0_1 : S100000x1.BroadcastsInDim S100000x4 (![0, 1] : Fin 2 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S_S100000x2 : S_.BroadcastsInDim S100000x2 (![] : Fin 0 → Fin S100000x2.rank)
  bcast_S3200000x1_S3200000x2_0_1 : S3200000x1.BroadcastsInDim S3200000x2 (![0, 1] : Fin 2 → Fin S3200000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x128_S128x4_S100000x4_1_0_0_1_n_n_wf : DotDims.WF S100000x128 S128x4 S100000x4 [1] [0] [0] [1] [] []
  gather_S100000x4_S3200000x1_S3200000x4_1_0_n_n_0_1_14_wf : GatherDims.WF S100000x4 S3200000x1 S3200000x4 [1] [0] [] [0] [] 1 ![1, 4]
  scatter_S100000x4_S3200000x1_S3200000x4_1_0_0_1_wf : ScatterDims.WF S100000x4 S3200000x1 S3200000x4 [1] [0] [0] 1
  dot_S100000x4_S4x4_S100000x4_1_0_0_1_n_n_wf : DotDims.WF S100000x4 S4x4 S100000x4 [1] [0] [0] [1] [] []
  dot_S100000x4_S4x2_S100000x2_1_0_0_1_n_n_wf : DotDims.WF S100000x4 S4x2 S100000x2 [1] [0] [0] [1] [] []
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1
  dot_S100000x2_S2x7_S100000x7_1_0_0_1_n_n_wf : DotDims.WF S100000x2 S2x7 S100000x7 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x128_S128x4_S100000x4_1_0_0_1_n_n : DotDims S100000x128 S128x4 S100000x4 where
  lhsContracting := [1]
  rhsContracting := [0]
  lhsNonContracting := [0]
  rhsNonContracting := [1]
  lhsBatch := []
  rhsBatch := []
  wf := dot_S100000x128_S128x4_S100000x4_1_0_0_1_n_n_wf
def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def dot_S100000x4_S4x4_S100000x4_1_0_0_1_n_n : DotDims S100000x4 S4x4 S100000x4 where
  lhsContracting := [1]
  rhsContracting := [0]
  lhsNonContracting := [0]
  rhsNonContracting := [1]
  lhsBatch := []
  rhsBatch := []
  wf := dot_S100000x4_S4x4_S100000x4_1_0_0_1_n_n_wf
def dot_S100000x4_S4x2_S100000x2_1_0_0_1_n_n : DotDims S100000x4 S4x2 S100000x2 where
  lhsContracting := [1]
  rhsContracting := [0]
  lhsNonContracting := [0]
  rhsNonContracting := [1]
  lhsBatch := []
  rhsBatch := []
  wf := dot_S100000x4_S4x2_S100000x2_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def dot_S100000x2_S2x7_S100000x7_1_0_0_1_n_n : DotDims S100000x2 S2x7 S100000x7 where
  lhsContracting := [1]
  rhsContracting := [0]
  lhsNonContracting := [0]
  rhsNonContracting := [1]
  lhsBatch := []
  rhsBatch := []
  wf := dot_S100000x2_S2x7_S100000x7_1_0_0_1_n_n_wf

class Facts : Prop extends Facts₀ where

variable [Facts]
-- ==== Proof.KernelRun.lean ====
/-
  The kernel program's run, with its two results kept.

  @main is eleven segments: four stretches of host operations and seven pipelined regions. The generated frame proves
  each segment over the thread state "every unscoped buffer at the boundary's contents" and names those contents
  boundary by boundary (a host stretch applies its operations; a region replaces its arrays by what its write-backs
  leave). Here the same launch is read at the end not only at the ten arguments but also at the two result buffers:
  every weakly fair execution terminates, nothing faults, and the results hold the last boundary's contents.
-/
import proofs.«176993_j33165737459841_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with both results at the last boundary's
    contents and the arguments as launched. -/
theorem run : θ_run defs (onTc (τ := τ) (main (F := F))) ⟨m, fun _ => 0, ρ⟩ (fun r => ∀ c : Dev nD,
      r.2.mem ((c.tc : Thread nD τ).loc main_v98) = W11 m ρ c (Proc.devRef .tc main_v98)
      ∧ r.2.mem ((c.tc : Thread nD τ).loc main_v97) = W11 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v98 (by decide)),
       h c _ (mem_uc main_v97 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.Run

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«176993_j33165737459841_1_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.LibDense.lean ====
/-
  A dense layer read at an entry, over the extended reals.

  A dense layer is a plain matrix product plus a bias vector added to every row. On the matrix unit it is written as the
  product into a zero accumulator plus the bias, held as a one-row matrix, broadcast over the rows; on the host as the
  dot_general plus the bias vector broadcast first to one row and then over the rows. Either way the entry (p, q) is
  the row-by-column sum Σ_k A (p, k) · B (k, q) plus the bias at q. The extents and the operands' float formats are
  arbitrary.
-/
import proofs.«176993_j33165737459841_1_alg».proof.Proof.LibMatmulPlain
import proofs.«176993_j33165737459841_1_alg».proof.Proof.LibHostDotPlain
import Idealize.ShloMosaic.Lib.ValueLayout
import Idealize.ShloMosaic.Lib.Pipeline.Value

noncomputable section

open scoped BigOperators

namespace Idealize.ShloMosaic.Dense

open Idealize.ShloMosaic Idealize.ShloMosaic.ValueIdx

variable {M K N : Nat}

/-- The matrix unit's dense layer at an entry: the product into the zero accumulator, plus the one-row bias broadcast
    over the rows. -/
theorem matmul_bias_apply {φ₁ φ₂ : FTy} (A : FVec Ideal ⟨2, ![M, K]⟩ φ₁) (B : FVec Ideal ⟨2, ![K, N]⟩ φ₂)
    (c : FVec Ideal ⟨2, ![1, N]⟩ .f32) (h : (⟨2, ![1, N]⟩ : Shape).Broadcasts ⟨2, ![M, N]⟩) (p : Fin M) (q : Fin N) :
    addf (matmul (DotDims.plain M K N) none A B (constant (F := Ideal) ⟨2, ![M, N]⟩ .f32 0x00000000#32))
        (broadcastTo ⟨2, ![M, N]⟩ c h) (ix2 p q)
      = ∑ k : Fin K, A (ix2 p k) * B (ix2 k q) + c (ix2 (0 : Fin 1) q) := by
  show matmul (DotDims.plain M K N) none A B (constant (F := Ideal) ⟨2, ![M, N]⟩ .f32 0x00000000#32) (ix2 p q)
      + broadcastTo ⟨2, ![M, N]⟩ c h (ix2 p q) = _
  rw [MatmulPlain.matmul_zero_apply, broadcastTo_1b_ab_apply]
  rfl

/-- A bias vector broadcast to one row and then over the rows, at an entry: the bias at the column. -/
theorem bias_rows_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have hq : (if N = 1 then 0 else q.val) = q.val := by
    split
    · have := q.isLt; omega
    · rfl
  refine (broadcastInDim_apply ![0, 1] h2 _ (ix2 p q) (ix2 (0 : Fin 1) q) fun ax => ?_).trans ?_
  · match ax with
    | ⟨0, _⟩ => rfl
    | ⟨1, _⟩ => exact hq.symm
  · refine broadcastInDim_apply ![1] h1 b (ix2 (0 : Fin 1) q) (ix1 q) fun ax => ?_
    match ax with
    | ⟨0, _⟩ => exact hq.symm

/-- The host's dense layer at an entry: the dot_general plus the bias vector broadcast over the rows. -/
theorem dot_bias_apply {φ₁ φ₂ : FTy} (A : FVec Ideal ⟨2, ![M, K]⟩ φ₁) (B : FVec Ideal ⟨2, ![K, N]⟩ φ₂)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) (DotDims.plain M K N) none A B)
        (broadcastInDim ⟨2, ![M, N]⟩ ![0, 1] h2 (broadcastInDim ⟨2, ![1, N]⟩ ![1] h1 b)) (ix2 p q)
      = ∑ k : Fin K, A (ix2 p k) * B (ix2 k q) + b (ix1 q) := by
  show Host.dotGeneral (F := Ideal) (DotDims.plain M K N) none A B (ix2 p q)
      + broadcastInDim ⟨2, ![M, N]⟩ ![0, 1] h2 (broadcastInDim ⟨2, ![1, N]⟩ ![1] h1 b) (ix2 p q) = _
  rw [HostDotPlain.dotGeneral_apply, bias_rows_apply]
  rfl

end Idealize.ShloMosaic.Dense

end
-- ==== Proof.LibRowLayers.lean ====
/-
  Three row-local layers over the extended reals, read at one entry of a block of rows.

  Each of the three layers below produces row R of its result from row R of its first operand alone (and from the
  whole of its small second and third operands). So when a block `a` of `m` rows agrees with the rows of a whole
  array `A` of `M` rows it was cut from — row `r` of the block is row `R` of the array —, the layer applied to the
  block, read at row `r`, is the layer applied to the whole array, read at row `R`:

  * the product with a matrix: the matrix unit's product into a zero accumulator (its operands narrowed to a shorter
    float format first, which changes nothing here) against the host's dot_general: both are Σ_k A(R,k) · B(k,q);
  * the bias and the activation: tanh (x(r,q) + b(q)), the bias held as one row and spread over the rows on one side,
    broadcast to one row and then over the rows on the other;
  * the product plus the bias: Σ_k A(R,k) · B(k,q) + b(q).

  No law of the extended reals beyond rewriting equal summands is used: the two sides are the same expression.
-/
import proofs.«176993_j33165737459841_1_alg».proof.Proof.LibMatmulPlain
import proofs.«176993_j33165737459841_1_alg».proof.Proof.LibHostDotPlain
import proofs.«176993_j33165737459841_1_alg».proof.Proof.LibDense
import Idealize.ShloMosaic.Lib.ValueLayout
import Idealize.ShloMosaic.Lib.Pipeline.Value

noncomputable section

open scoped BigOperators

namespace Idealize.ShloMosaic.RowLayers

open Idealize.ShloMosaic Idealize.ShloMosaic.ValueIdx

variable {M m K N : Nat}

/-- Row `r` of the block's product is row `R` of the whole product: the same row-by-column sums. -/
theorem product_rows (A : FVec Ideal ⟨2, ![M, K]⟩ .f32) (B : FVec Ideal ⟨2, ![K, N]⟩ .f32)
    (a : FVec Ideal ⟨2, ![m, K]⟩ .f32) (hn : FTy.bf16.bits < FTy.f32.bits) (r : Fin m) (R : Fin M) (q : Fin N)
    (ha : ∀ k : Fin K, a (ix2 r k) = A (ix2 R k)) :
    matmul (DotDims.plain m K N) none (truncf .bf16 a hn) (truncf .bf16 B hn)
        (constant (F := Ideal) ⟨2, ![m, N]⟩ .f32 0x00000000#32) (ix2 r q)
      = Host.dotGeneral (F := Ideal) (DotDims.plain M K N) none A B (ix2 R q) := by
  rw [MatmulPlain.matmul_zero_apply, HostDotPlain.dotGeneral_apply]
  refine Finset.sum_congr rfl fun k _ => ?_
  show a (ix2 r k) * B (ix2 k q) = A (ix2 R k) * B (ix2 k q)
  rw [ha k]

/-- Row `r` of tanh (block + bias) is row `R` of tanh (array + bias): tanh (x + b(q)) at equal x. -/
theorem bias_tanh_rows (X : FVec Ideal ⟨2, ![M, N]⟩ .f32) (b : FVec Ideal ⟨1, ![N]⟩ .f32)
    (x : FVec Ideal ⟨2, ![m, N]⟩ .f32)
    (hs : (⟨2, ![m, N]⟩ : Shape).ShapeCasts ⟨2, ![m, N]⟩) (hr : (⟨1, ![N]⟩ : Shape).ShapeCasts ⟨2, ![1, N]⟩)
    (hb : (⟨2, ![1, N]⟩ : Shape).Broadcasts ⟨2, ![m, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (r : Fin m) (R : Fin M) (q : Fin N) (hx : x (ix2 r q) = X (ix2 R q)) :
    tanh (addf (shapeCast ⟨2, ![m, N]⟩ x hs) (broadcastTo ⟨2, ![m, N]⟩ (shapeCast ⟨2, ![1, N]⟩ b hr) hb)) (ix2 r q)
      = Host.tanh (addf X (broadcastInDim ⟨2, ![M, N]⟩ ![0, 1] h2 (broadcastInDim ⟨2, ![1, N]⟩ ![1] h1 b))) (ix2 R q) := by
  show Ideal.tanh (shapeCast ⟨2, ![m, N]⟩ x hs (ix2 r q)
        + broadcastTo ⟨2, ![m, N]⟩ (shapeCast ⟨2, ![1, N]⟩ b hr) hb (ix2 r q))
      = Ideal.tanh (X (ix2 R q)
        + broadcastInDim ⟨2, ![M, N]⟩ ![0, 1] h2 (broadcastInDim ⟨2, ![1, N]⟩ ![1] h1 b) (ix2 R q))
  rw [shapeCast_self, broadcastTo_1b_ab_apply, shapeCast_a_1a_apply, Dense.bias_rows_apply, hx]

/-- Row `r` of the block's product plus the bias is row `R` of the whole product plus the bias. -/
theorem dense_rows (A : FVec Ideal ⟨2, ![M, K]⟩ .f32) (B : FVec Ideal ⟨2, ![K, N]⟩ .f32) (b : FVec Ideal ⟨1, ![N]⟩ .f32)
    (a : FVec Ideal ⟨2, ![m, K]⟩ .f32) (hn : FTy.bf16.bits < FTy.f32.bits)
    (hr : (⟨1, ![N]⟩ : Shape).ShapeCasts ⟨2, ![1, N]⟩) (hb : (⟨2, ![1, N]⟩ : Shape).Broadcasts ⟨2, ![m, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (r : Fin m) (R : Fin M) (q : Fin N) (ha : ∀ k : Fin K, a (ix2 r k) = A (ix2 R k)) :
    addf (matmul (DotDims.plain m K N) none (truncf .bf16 a hn) (truncf .bf16 B hn)
          (constant (F := Ideal) ⟨2, ![m, N]⟩ .f32 0x00000000#32))
        (broadcastTo ⟨2, ![m, N]⟩ (shapeCast ⟨2, ![1, N]⟩ b hr) hb) (ix2 r q)
      = addf (Host.dotGeneral (F := Ideal) (DotDims.plain M K N) none A B)
          (broadcastInDim ⟨2, ![M, N]⟩ ![0, 1] h2 (broadcastInDim ⟨2, ![1, N]⟩ ![1] h1 b)) (ix2 R q) := by
  rw [Dense.matmul_bias_apply, Dense.dot_bias_apply, shapeCast_a_1a_apply]
  congr 1
  refine Finset.sum_congr rfl fun k _ => ?_
  show a (ix2 r k) * B (ix2 k q) = A (ix2 R k) * B (ix2 k q)
  rw [ha k]

end Idealize.ShloMosaic.RowLayers

end
-- ==== Proof.Region0.lean ====
/-
  Region 0: the first layer's feature transform, x · W1.

  The pipeline cuts the [100000, 128] operand into ten blocks of 10000 rows, keeps the [128, 4] matrix whole, and at
  point t writes rows 10000·t … 10000·t + 9999 of the result: the matrix unit's product of block t with the matrix.
  Row r of that block product is row 10000·t + r of the product of the whole operand with the matrix (a row of a
  product depends on that row of the left operand only), and the ten blocks cover all 100000 rows, so after the
  region the result array holds the host's dot_general of the operand and the matrix as the region found them.
-/
import proofs.«176993_j33165737459841_1_alg».proof.Proof.Gen.KernelIdeal.Frame
import proofs.«176993_j33165737459841_1_alg».proof.Proof.Gen.ReferenceIdeal
import proofs.«176993_j33165737459841_1_alg».proof.Proof.LibRowLayers
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

theorem hz : (![0, 0] : Fin 2 → Nat) = fun _ => 0 := funext fun a => by fin_cases a <;> rfl

/-- The product of the whole operand with the matrix, as the host spells it. -/
abbrev whole (A : FVec Ideal S100000x128 .f32) (B : FVec Ideal S128x4 .f32) : FVec Ideal S100000x4 .f32 :=
  Host.dotGeneral (F := Ideal) Cert.ReferenceIdeal.dot_S100000x128_S128x4_S100000x4_1_0_0_1_n_n none A B

/-- The body's arithmetic on a block whose row p is row R of the whole operand, read at (p, q): the whole product
    at (R, q). -/
theorem pay_rows (x0 : FVec Ideal S10000x128 .f32) (x1 : FVec Ideal S128x4 .f32) (A : FVec Ideal S100000x128 .f32)
    (p : Fin 10000) (q : Fin 4) (R : Fin 100000) (h0 : ∀ k : Fin 128, x0 (ix2 p k) = A (ix2 R k)) :
    k0_pay1 (F := Ideal) x0 x1 (ix2 p q) = whole A x1 (ix2 R q) := by
  unfold k0_pay1
  exact RowLayers.product_rows (M := 100000) (m := 10000) (K := 128) (N := 4) A x1 x0 bitsLt_bf16_f32 p R q h0

variable (V : (c : Dev nD) → (b : Ref sig .tc) → Buf (Elt Ideal) ((c : Thread nD τ).loc b))

/-- The printed index maps over the grid: the operand's and the result's blocks move down with the point, the
    matrix stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The matrix's one block is the matrix. -/
theorem iblk_matrix (c : Dev nD) (t : Fin cfg0.N) : (iblk0 V c 1 t : FVec Ideal S128x4 .f32) = V c main_arg2 := by
  obtain ⟨-, -, e2, e3, -, -⟩ := idx_facts t
  funext y
  unfold iblk0
  rw [View.read_apply]
  show V c main_arg2 (((cfg0.win 1).blk t).view.emb y) = V c main_arg2 y
  refine congrArg _ (funext fun a => Fin.ext ?_)
  match a with
  | ⟨0, _⟩ => show win0_1.index t (0 : Fin 2) * 128 + 1 * (y 0).val = (y 0).val; rw [e2]; omega
  | ⟨1, _⟩ => show win0_1.index t (1 : Fin 2) * 4 + 1 * (y 1).val = (y 1).val; rw [e3]; omega

/-- Row p of the operand's block at point t is row 10000·t + p of the operand. -/
theorem iblk_rows (c : Dev nD) (t : Fin cfg0.N) (p : Fin 10000) (k : Fin 128) (R : Fin 100000)
    (hR : R.val = t.val * 10000 + p.val) :
    (iblk0 V c 0 t : FVec Ideal S10000x128 .f32) (ix2 p k) = (V c main_arg0 : FVec Ideal S100000x128 .f32) (ix2 R k) := by
  obtain ⟨e0, e1, -, -, -, -⟩ := idx_facts t
  unfold iblk0
  rw [View.read_apply]
  show V c main_arg0 (((cfg0.win 0).blk t).view.emb (ix2 p k)) = V c main_arg0 (ix2 R k)
  refine congrArg _ (funext fun a => Fin.ext ?_)
  match a with
  | ⟨0, _⟩ => show win0_0.index t (0 : Fin 2) * 10000 + 1 * p.val = R.val; rw [e0, hR]; omega
  | ⟨1, _⟩ => show win0_0.index t (1 : Fin 2) * 128 + 1 * k.val = k.val; rw [e1]; omega

/-- What point t writes back is block t of the whole product. -/
theorem flushed_eq (c : Dev nD) (t : Fin cfg0.N) :
    (dat0 V c).flushed 2 t = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x4) hz]
  obtain ⟨-, -, -, -, e4, e5⟩ := idx_facts t
  have hN : cfg0.N = 10 := N_0
  funext j
  obtain ⟨p, q, rfl⟩ : ∃ (p : Fin 10000) (q : Fin 4), j = ix2 p q := ⟨j 0, j 1, eq_ix2 j⟩
  have hlt : t.val * 10000 + p.val < 100000 := by have := t.isLt; have := p.isLt; omega
  have hemb : ((cfg0.win 2).blk t).view.emb (ix2 p q) = ix2 (⟨t.val * 10000 + p.val, hlt⟩ : Fin 100000) q := by
    funext a
    apply Fin.ext
    match a with
    | ⟨0, _⟩ => show win0_2.index t (0 : Fin 2) * 10000 + 1 * p.val = t.val * 10000 + p.val; rw [e4]; omega
    | ⟨1, _⟩ => show win0_2.index t (1 : Fin 2) * 4 + 1 * q.val = q.val; rw [e5]; omega
  show k0_pay1 (F := Ideal) (iblk0 V c 0 t) (iblk0 V c 1 t) (ix2 p q)
      = whole (V c main_arg0) (V c main_arg2) (((cfg0.win 2).blk t).view.emb (ix2 p q))
  rw [hemb, iblk_matrix V c t]
  exact pay_rows (iblk0 V c 0 t) (V c main_arg2) (V c main_arg0) p q ⟨t.val * 10000 + p.val, hlt⟩
    (fun k => iblk_rows V c t p k ⟨t.val * 10000 + p.val, hlt⟩ rfl)

/-- An index of the result array is in point t's block iff each coordinate is in the block's range. -/
theorem mem_blk (t : Fin cfg0.N) (i : S100000x4.Idx) :
    i ∈ ((cfg0.win 2).blk t).view.set ↔ ∀ a : Fin 2, win0_2.index t a * S10000x4.size a ≤ (i a).val
      ∧ (i a).val < win0_2.index t a * S10000x4.size a + S10000x4.size a := by
  show i ∈ ((View.whole main_v32).slice (win0_2.rect t)).set ↔ _
  rw [View.set_slice_whole, Rect.mem_set_unit]
  exact Iff.rfl

/-- After the region the result array is the whole product of the operand and the matrix as the region found them:
    row R is written by point R / 10000. -/
theorem value (c : Dev nD) : (dat0 V c).arrAt 2 cfg0.N = whole (V c main_arg0) (V c main_arg2) :=
  (dat0 V c).arrAt_eq_of_cover 2 _ (fun t _ => flushed_eq V c t) fun i => by
    have hi0 : (i 0).val < 100000 := (i 0).isLt
    have hi1 : (i 1).val < 4 := (i 1).isLt
    have hN : cfg0.N = 10 := N_0
    have hlt : (i 0).val / 10000 < cfg0.N := by rw [hN]; omega
    obtain ⟨-, -, -, -, e4, e5⟩ := idx_facts ⟨(i 0).val / 10000, hlt⟩
    refine ⟨⟨(i 0).val / 10000, hlt⟩, flush0_2 _, ?_⟩
    rw [mem_blk]
    intro a
    match a with
    | ⟨0, _⟩ =>
      show win0_2.index ⟨(i 0).val / 10000, hlt⟩ (0 : Fin 2) * 10000 ≤ (i 0).val
        ∧ (i 0).val < win0_2.index ⟨(i 0).val / 10000, hlt⟩ (0 : Fin 2) * 10000 + 10000
      rw [e4]; show (i 0).val / 10000 * 10000 ≤ (i 0).val ∧ (i 0).val < (i 0).val / 10000 * 10000 + 10000; omega
    | ⟨1, _⟩ =>
      show win0_2.index ⟨(i 0).val / 10000, hlt⟩ (1 : Fin 2) * 4 ≤ (i 1).val
        ∧ (i 1).val < win0_2.index ⟨(i 0).val / 10000, hlt⟩ (1 : Fin 2) * 4 + 4
      rw [e5]; omega

end Cert.KernelIdeal.Region0

end
-- ==== Proof.Region1.lean ====
/-
  Region 1: the first layer's bias and activation, tanh (agg + b1).

  The pipeline cuts the [100000, 4] aggregate into ten blocks of 10000 rows, keeps the bias vector whole, and at
  point t writes rows 10000·t … 10000·t + 9999 of the result: tanh of the block plus the bias spread over the rows.
  Entry (r, q) of that is tanh (x(10000·t + r, q) + b(q)), which is entry (10000·t + r, q) of tanh of the whole
  aggregate plus the bias broadcast over its rows; the ten blocks cover all 100000 rows.
-/
import proofs.«176993_j33165737459841_1_alg».proof.Proof.Gen.KernelIdeal.Frame
import proofs.«176993_j33165737459841_1_alg».proof.Proof.Gen.ReferenceIdeal
import proofs.«176993_j33165737459841_1_alg».proof.Proof.LibRowLayers
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

theorem hz : (![0, 0] : Fin 2 → Nat) = fun _ => 0 := funext fun a => by fin_cases a <;> rfl
theorem hz1 : (![0] : Fin 1 → Nat) = fun _ => 0 := funext fun a => by fin_cases a; rfl

/-- tanh of the whole aggregate plus the bias over its rows, as the host spells it. -/
abbrev whole (X : FVec Ideal S100000x4 .f32) (b : FVec Ideal S4 .f32) : FVec Ideal S100000x4 .f32 :=
  Host.tanh (addf X (broadcastInDim Cert.ReferenceIdeal.S100000x4 ![0, 1] Cert.ReferenceIdeal.Facts₀.bcast_S1x4_S100000x4_0_1
    (broadcastInDim Cert.ReferenceIdeal.S1x4 ![1] Cert.ReferenceIdeal.Facts₀.bcast_S4_S1x4_1 b)))

/-- The body's arithmetic on a block whose entry (p, q) is entry (R, q) of the whole aggregate, read at (p, q). -/
theorem pay_rows (x0 : FVec Ideal S10000x4 .f32) (x1 : FVec Ideal S4 .f32) (X : FVec Ideal S100000x4 .f32)
    (p : Fin 10000) (q : Fin 4) (R : Fin 100000) (h0 : x0 (ix2 p q) = X (ix2 R q)) :
    k1_pay1 (F := Ideal) x0 x1 (ix2 p q) = whole X x1 (ix2 R q) := by
  unfold k1_pay1
  exact RowLayers.bias_tanh_rows (M := 100000) (m := 10000) (N := 4) X x1 x0 shapeCasts_S10000x4_S10000x4
    shapeCasts_S4_S1x4 broadcasts_S1x4_S10000x4 Cert.ReferenceIdeal.Facts₀.bcast_S4_S1x4_1
    Cert.ReferenceIdeal.Facts₀.bcast_S1x4_S100000x4_0_1 p R q h0

variable (V : (c : Dev nD) → (b : Ref sig .tc) → Buf (Elt Ideal) ((c : Thread nD τ).loc b))

/-- The printed index maps over the grid: the aggregate's and the result's blocks move down with the point, the
    bias stays. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- The bias's one block is the bias. -/
theorem iblk_bias (c : Dev nD) (t : Fin cfg1.N) : (iblk1 V c 1 t : FVec Ideal S4 .f32) = V c main_arg3 := by
  obtain ⟨-, -, e2, -, -⟩ := idx_facts t
  funext y
  unfold iblk1
  rw [View.read_apply]
  show V c main_arg3 (((cfg1.win 1).blk t).view.emb y) = V c main_arg3 y
  refine congrArg _ (funext fun a => Fin.ext ?_)
  match a with
  | ⟨0, _⟩ => show win1_1.index t (0 : Fin 1) * 4 + 1 * (y 0).val = (y 0).val; rw [e2]; omega

/-- Row p of the aggregate's block at point t is row 10000·t + p of the aggregate. -/
theorem iblk_rows (c : Dev nD) (t : Fin cfg1.N) (p : Fin 10000) (k : Fin 4) (R : Fin 100000)
    (hR : R.val = t.val * 10000 + p.val) :
    (iblk1 V c 0 t : FVec Ideal S10000x4 .f32) (ix2 p k) = (V c main_v52 : FVec Ideal S100000x4 .f32) (ix2 R k) := by
  obtain ⟨e0, e1, -, -, -⟩ := idx_facts t
  unfold iblk1
  rw [View.read_apply]
  show V c main_v52 (((cfg1.win 0).blk t).view.emb (ix2 p k)) = V c main_v52 (ix2 R k)
  refine congrArg _ (funext fun a => Fin.ext ?_)
  match a with
  | ⟨0, _⟩ => show win1_0.index t (0 : Fin 2) * 10000 + 1 * p.val = R.val; rw [e0, hR]; omega
  | ⟨1, _⟩ => show win1_0.index t (1 : Fin 2) * 4 + 1 * k.val = k.val; rw [e1]; omega

/-- What point t writes back is block t of the whole activation. -/
theorem flushed_eq (c : Dev nD) (t : Fin cfg1.N) :
    (dat1 V c).flushed 2 t = ((cfg1.win 2).blk t).view.read (Elt Ideal) (whole (V c main_v52) (V c main_arg3)) := by
  show (cfg1.win 2).cut (grid1.coords t) ((dat1 V c).after 2 t) = _
  rw [after1_2]
  unfold out1_2
  rw [View.canon_unit_zero hz]
  simp only [View.ld_unit_zero (S := S10000x4) hz, View.ld_unit_zero (S := S4) hz1]
  obtain ⟨-, -, -, e4, e5⟩ := idx_facts t
  have hN : cfg1.N = 10 := N_1
  funext j
  obtain ⟨p, q, rfl⟩ : ∃ (p : Fin 10000) (q : Fin 4), j = ix2 p q := ⟨j 0, j 1, eq_ix2 j⟩
  have hlt : t.val * 10000 + p.val < 100000 := by have := t.isLt; have := p.isLt; omega
  have hemb : ((cfg1.win 2).blk t).view.emb (ix2 p q) = ix2 (⟨t.val * 10000 + p.val, hlt⟩ : Fin 100000) q := by
    funext a
    apply Fin.ext
    match a with
    | ⟨0, _⟩ => show win1_2.index t (0 : Fin 2) * 10000 + 1 * p.val = t.val * 10000 + p.val; rw [e4]; omega
    | ⟨1, _⟩ => show win1_2.index t (1 : Fin 2) * 4 + 1 * q.val = q.val; rw [e5]; omega
  show k1_pay1 (F := Ideal) (iblk1 V c 0 t) (iblk1 V c 1 t) (ix2 p q)
      = whole (V c main_v52) (V c main_arg3) (((cfg1.win 2).blk t).view.emb (ix2 p q))
  rw [hemb, iblk_bias V c t]
  exact pay_rows (iblk1 V c 0 t) (V c main_arg3) (V c main_v52) p q ⟨t.val * 10000 + p.val, hlt⟩
    (iblk_rows V c t p q ⟨t.val * 10000 + p.val, hlt⟩ rfl)

/-- An index of the result array is in point t's block iff each coordinate is in the block's range. -/
theorem mem_blk (t : Fin cfg1.N) (i : S100000x4.Idx) :
    i ∈ ((cfg1.win 2).blk t).view.set ↔ ∀ a : Fin 2, win1_2.index t a * S10000x4.size a ≤ (i a).val
      ∧ (i a).val < win1_2.index t a * S10000x4.size a + S10000x4.size a := by
  show i ∈ ((View.whole main_v53).slice (win1_2.rect t)).set ↔ _
  rw [View.set_slice_whole, Rect.mem_set_unit]
  exact Iff.rfl

/-- After the region the result array is tanh of the aggregate plus the bias, both as the region found them: row R
    is written by point R / 10000. -/
theorem value (c : Dev nD) : (dat1 V c).arrAt 2 cfg1.N = whole (V c main_v52) (V c main_arg3) :=
  (dat1 V c).arrAt_eq_of_cover 2 _ (fun t _ => flushed_eq V c t) fun i => by
    have hi0 : (i 0).val < 100000 := (i 0).isLt
    have hi1 : (i 1).val < 4 := (i 1).isLt
    have hN : cfg1.N = 10 := N_1
    have hlt : (i 0).val / 10000 < cfg1.N := by rw [hN]; omega
    obtain ⟨-, -, -, e4, e5⟩ := idx_facts ⟨(i 0).val / 10000, hlt⟩
    refine ⟨⟨(i 0).val / 10000, hlt⟩, flush1_2 _, ?_⟩
    rw [mem_blk]
    intro a
    match a with
    | ⟨0, _⟩ =>
      show win1_2.index ⟨(i 0).val / 10000, hlt⟩ (0 : Fin 2) * 10000 ≤ (i 0).val
        ∧ (i 0).val < win1_2.index ⟨(i 0).val / 10000, hlt⟩ (0 : Fin 2) * 10000 + 10000
      rw [e4]; show (i 0).val / 10000 * 10000 ≤ (i 0).val ∧ (i 0).val < (i 0).val / 10000 * 10000 + 10000; omega
    | ⟨1, _⟩ =>
      show win1_2.index ⟨(i 0).val / 10000, hlt⟩ (1 : Fin 2) * 4 ≤ (i 1).val
        ∧ (i 1).val < win1_2.index ⟨(i 0).val / 10000, hlt⟩ (1 : Fin 2) * 4 + 4
      rw [e5]; omega

end Cert.KernelIdeal.Region1

end
-- ==== Proof.Region2.lean ====
/-
  Region 2: the second layer's feature transform, h · W2.

  The pipeline cuts the [100000, 4] operand into ten blocks of 10000 rows, keeps the [4, 4] matrix whole, and at
  point t writes rows 10000·t … 10000·t + 9999 of the result: the matrix unit's product of block t with the matrix.
  Row r of that block product is row 10000·t + r of the product of the whole operand with the matrix (a row of a
  product depends on that row of the left operand only), and the ten blocks cover all 100000 rows, so after the
  region the result array holds the host's dot_general of the operand and the matrix as the region found them.
-/
import proofs.«176993_j33165737459841_1_alg».proof.Proof.Gen.KernelIdeal.Frame
import proofs.«176993_j33165737459841_1_alg».proof.Proof.Gen.ReferenceIdeal
import proofs.«176993_j33165737459841_1_alg».proof.Proof.LibRowLayers
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

theorem hz : (![0, 0] : Fin 2 → Nat) = fun _ => 0 := funext fun a => by fin_cases a <;> rfl

/-- The product of the whole operand with the matrix, as the host spells it. -/
abbrev whole (A : FVec Ideal S100000x4 .f32) (B : FVec Ideal S4x4 .f32) : FVec Ideal S100000x4 .f32 :=
  Host.dotGeneral (F := Ideal) Cert.ReferenceIdeal.dot_S100000x4_S4x4_S100000x4_1_0_0_1_n_n none A B

/-- The body's arithmetic on a block whose row p is row R of the whole operand, read at (p, q): the whole product
    at (R, q). -/
theorem pay_rows (x0 : FVec Ideal S10000x4 .f32) (x1 : FVec Ideal S4x4 .f32) (A : FVec Ideal S100000x4 .f32)
    (p : Fin 10000) (q : Fin 4) (R : Fin 100000) (h0 : ∀ k : Fin 4, x0 (ix2 p k) = A (ix2 R k)) :
    k2_pay1 (F := Ideal) x0 x1 (ix2 p q) = whole A x1 (ix2 R q) := by
  unfold k2_pay1
  rw [shapeCast_self]
  exact RowLayers.product_rows (M := 100000) (m := 10000) (K := 4) (N := 4) A x1 x0 bitsLt_bf16_f32 p R q h0

variable (V : (c : Dev nD) → (b : Ref sig .tc) → Buf (Elt Ideal) ((c : Thread nD τ).loc b))

/-- The printed index maps over the grid: the operand's and the result's blocks move down with the point, the
    matrix stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The matrix's one block is the matrix. -/
theorem iblk_matrix (c : Dev nD) (t : Fin cfg2.N) : (iblk2 V c 1 t : FVec Ideal S4x4 .f32) = V c main_arg4 := by
  obtain ⟨-, -, e2, e3, -, -⟩ := idx_facts t
  funext y
  unfold iblk2
  rw [View.read_apply]
  show V c main_arg4 (((cfg2.win 1).blk t).view.emb y) = V c main_arg4 y
  refine congrArg _ (funext fun a => Fin.ext ?_)
  match a with
  | ⟨0, _⟩ => show win2_1.index t (0 : Fin 2) * 4 + 1 * (y 0).val = (y 0).val; rw [e2]; omega
  | ⟨1, _⟩ => show win2_1.index t (1 : Fin 2) * 4 + 1 * (y 1).val = (y 1).val; rw [e3]; omega

/-- Row p of the operand's block at point t is row 10000·t + p of the operand. -/
theorem iblk_rows (c : Dev nD) (t : Fin cfg2.N) (p : Fin 10000) (k : Fin 4) (R : Fin 100000)
    (hR : R.val = t.val * 10000 + p.val) :
    (iblk2 V c 0 t : FVec Ideal S10000x4 .f32) (ix2 p k) = (V c main_v53 : FVec Ideal S100000x4 .f32) (ix2 R k) := by
  obtain ⟨e0, e1, -, -, -, -⟩ := idx_facts t
  unfold iblk2
  rw [View.read_apply]
  show V c main_v53 (((cfg2.win 0).blk t).view.emb (ix2 p k)) = V c main_v53 (ix2 R k)
  refine congrArg _ (funext fun a => Fin.ext ?_)
  match a with
  | ⟨0, _⟩ => show win2_0.index t (0 : Fin 2) * 10000 + 1 * p.val = R.val; rw [e0, hR]; omega
  | ⟨1, _⟩ => show win2_0.index t (1 : Fin 2) * 4 + 1 * k.val = k.val; rw [e1]; omega

/-- What point t writes back is block t of the whole product. -/
theorem flushed_eq (c : Dev nD) (t : Fin cfg2.N) :
    (dat2 V c).flushed 2 t = ((cfg2.win 2).blk t).view.read (Elt Ideal) (whole (V c main_v53) (V c main_arg4)) := by
  show (cfg2.win 2).cut (grid2.coords t) ((dat2 V c).after 2 t) = _
  rw [after2_2]
  unfold out2_2
  rw [View.canon_unit_zero hz]
  simp only [View.ld_unit_zero (S := S10000x4) hz, View.ld_unit_zero (S := S4x4) hz]
  obtain ⟨-, -, -, -, e4, e5⟩ := idx_facts t
  have hN : cfg2.N = 10 := N_2
  funext j
  obtain ⟨p, q, rfl⟩ : ∃ (p : Fin 10000) (q : Fin 4), j = ix2 p q := ⟨j 0, j 1, eq_ix2 j⟩
  have hlt : t.val * 10000 + p.val < 100000 := by have := t.isLt; have := p.isLt; omega
  have hemb : ((cfg2.win 2).blk t).view.emb (ix2 p q) = ix2 (⟨t.val * 10000 + p.val, hlt⟩ : Fin 100000) q := by
    funext a
    apply Fin.ext
    match a with
    | ⟨0, _⟩ => show win2_2.index t (0 : Fin 2) * 10000 + 1 * p.val = t.val * 10000 + p.val; rw [e4]; omega
    | ⟨1, _⟩ => show win2_2.index t (1 : Fin 2) * 4 + 1 * q.val = q.val; rw [e5]; omega
  show k2_pay1 (F := Ideal) (iblk2 V c 0 t) (iblk2 V c 1 t) (ix2 p q)
      = whole (V c main_v53) (V c main_arg4) (((cfg2.win 2).blk t).view.emb (ix2 p q))
  rw [hemb, iblk_matrix V c t]
  exact pay_rows (iblk2 V c 0 t) (V c main_arg4) (V c main_v53) p q ⟨t.val * 10000 + p.val, hlt⟩
    (fun k => iblk_rows V c t p k ⟨t.val * 10000 + p.val, hlt⟩ rfl)

/-- An index of the result array is in point t's block iff each coordinate is in the block's range. -/
theorem mem_blk (t : Fin cfg2.N) (i : S100000x4.Idx) :
    i ∈ ((cfg2.win 2).blk t).view.set ↔ ∀ a : Fin 2, win2_2.index t a * S10000x4.size a ≤ (i a).val
      ∧ (i a).val < win2_2.index t a * S10000x4.size a + S10000x4.size a := by
  show i ∈ ((View.whole main_v54).slice (win2_2.rect t)).set ↔ _
  rw [View.set_slice_whole, Rect.mem_set_unit]
  exact Iff.rfl

/-- After the region the result array is the whole product of the operand and the matrix as the region found them:
    row R is written by point R / 10000. -/
theorem value (c : Dev nD) : (dat2 V c).arrAt 2 cfg2.N = whole (V c main_v53) (V c main_arg4) :=
  (dat2 V c).arrAt_eq_of_cover 2 _ (fun t _ => flushed_eq V c t) fun i => by
    have hi0 : (i 0).val < 100000 := (i 0).isLt
    have hi1 : (i 1).val < 4 := (i 1).isLt
    have hN : cfg2.N = 10 := N_2
    have hlt : (i 0).val / 10000 < cfg2.N := by rw [hN]; omega
    obtain ⟨-, -, -, -, e4, e5⟩ := idx_facts ⟨(i 0).val / 10000, hlt⟩
    refine ⟨⟨(i 0).val / 10000, hlt⟩, flush2_2 _, ?_⟩
    rw [mem_blk]
    intro a
    match a with
    | ⟨0, _⟩ =>
      show win2_2.index ⟨(i 0).val / 10000, hlt⟩ (0 : Fin 2) * 10000 ≤ (i 0).val
        ∧ (i 0).val < win2_2.index ⟨(i 0).val / 10000, hlt⟩ (0 : Fin 2) * 10000 + 10000
      rw [e4]; show (i 0).val / 10000 * 10000 ≤ (i 0).val ∧ (i 0).val < (i 0).val / 10000 * 10000 + 10000; omega
    | ⟨1, _⟩ =>
      show win2_2.index ⟨(i 0).val / 10000, hlt⟩ (1 : Fin 2) * 4 ≤ (i 1).val
        ∧ (i 1).val < win2_2.index ⟨(i 0).val / 10000, hlt⟩ (1 : Fin 2) * 4 + 4
      rw [e5]; omega

end Cert.KernelIdeal.Region2

end
-- ==== Proof.Region3.lean ====
/-
  Region 3: the second layer's bias and activation, tanh (agg + b2).

  The pipeline cuts the [100000, 4] aggregate into ten blocks of 10000 rows, keeps the bias vector whole, and at
  point t writes rows 10000·t … 10000·t + 9999 of the result: tanh of the block plus the bias spread over the rows.
  Entry (r, q) of that is tanh (x(10000·t + r, q) + b(q)), which is entry (10000·t + r, q) of tanh of the whole
  aggregate plus the bias broadcast over its rows; the ten blocks cover all 100000 rows.
-/
import proofs.«176993_j33165737459841_1_alg».proof.Proof.Gen.KernelIdeal.Frame
import proofs.«176993_j33165737459841_1_alg».proof.Proof.Gen.ReferenceIdeal
import proofs.«176993_j33165737459841_1_alg».proof.Proof.LibRowLayers
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

theorem hz : (![0, 0] : Fin 2 → Nat) = fun _ => 0 := funext fun a => by fin_cases a <;> rfl
theorem hz1 : (![0] : Fin 1 → Nat) = fun _ => 0 := funext fun a => by fin_cases a; rfl

/-- tanh of the whole aggregate plus the bias over its rows, as the host spells it. -/
abbrev whole (X : FVec Ideal S100000x4 .f32) (b : FVec Ideal S4 .f32) : FVec Ideal S100000x4 .f32 :=
  Host.tanh (addf X (broadcastInDim Cert.ReferenceIdeal.S100000x4 ![0, 1] Cert.ReferenceIdeal.Facts₀.bcast_S1x4_S100000x4_0_1
    (broadcastInDim Cert.ReferenceIdeal.S1x4 ![1] Cert.ReferenceIdeal.Facts₀.bcast_S4_S1x4_1 b)))

/-- The body's arithmetic on a block whose entry (p, q) is entry (R, q) of the whole aggregate, read at (p, q). -/
theorem pay_rows (x0 : FVec Ideal S10000x4 .f32) (x1 : FVec Ideal S4 .f32) (X : FVec Ideal S100000x4 .f32)
    (p : Fin 10000) (q : Fin 4) (R : Fin 100000) (h0 : x0 (ix2 p q) = X (ix2 R q)) :
    k3_pay1 (F := Ideal) x0 x1 (ix2 p q) = whole X x1 (ix2 R q) := by
  unfold k3_pay1
  exact RowLayers.bias_tanh_rows (M := 100000) (m := 10000) (N := 4) X x1 x0 shapeCasts_S10000x4_S10000x4
    shapeCasts_S4_S1x4 broadcasts_S1x4_S10000x4 Cert.ReferenceIdeal.Facts₀.bcast_S4_S1x4_1
    Cert.ReferenceIdeal.Facts₀.bcast_S1x4_S100000x4_0_1 p R q h0

variable (V : (c : Dev nD) → (b : Ref sig .tc) → Buf (Elt Ideal) ((c : Thread nD τ).loc b))

/-- The printed index maps over the grid: the aggregate's and the result's blocks move down with the point, the
    bias stays. -/
theorem idx_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- The bias's one block is the bias. -/
theorem iblk_bias (c : Dev nD) (t : Fin cfg3.N) : (iblk3 V c 1 t : FVec Ideal S4 .f32) = V c main_arg5 := by
  obtain ⟨-, -, e2, -, -⟩ := idx_facts t
  funext y
  unfold iblk3
  rw [View.read_apply]
  show V c main_arg5 (((cfg3.win 1).blk t).view.emb y) = V c main_arg5 y
  refine congrArg _ (funext fun a => Fin.ext ?_)
  match a with
  | ⟨0, _⟩ => show win3_1.index t (0 : Fin 1) * 4 + 1 * (y 0).val = (y 0).val; rw [e2]; omega

/-- Row p of the aggregate's block at point t is row 10000·t + p of the aggregate. -/
theorem iblk_rows (c : Dev nD) (t : Fin cfg3.N) (p : Fin 10000) (k : Fin 4) (R : Fin 100000)
    (hR : R.val = t.val * 10000 + p.val) :
    (iblk3 V c 0 t : FVec Ideal S10000x4 .f32) (ix2 p k) = (V c main_v74 : FVec Ideal S100000x4 .f32) (ix2 R k) := by
  obtain ⟨e0, e1, -, -, -⟩ := idx_facts t
  unfold iblk3
  rw [View.read_apply]
  show V c main_v74 (((cfg3.win 0).blk t).view.emb (ix2 p k)) = V c main_v74 (ix2 R k)
  refine congrArg _ (funext fun a => Fin.ext ?_)
  match a with
  | ⟨0, _⟩ => show win3_0.index t (0 : Fin 2) * 10000 + 1 * p.val = R.val; rw [e0, hR]; omega
  | ⟨1, _⟩ => show win3_0.index t (1 : Fin 2) * 4 + 1 * k.val = k.val; rw [e1]; omega

/-- What point t writes back is block t of the whole activation. -/
theorem flushed_eq (c : Dev nD) (t : Fin cfg3.N) :
    (dat3 V c).flushed 2 t = ((cfg3.win 2).blk t).view.read (Elt Ideal) (whole (V c main_v74) (V c main_arg5)) := by
  show (cfg3.win 2).cut (grid3.coords t) ((dat3 V c).after 2 t) = _
  rw [after3_2]
  unfold out3_2
  rw [View.canon_unit_zero hz]
  simp only [View.ld_unit_zero (S := S10000x4) hz, View.ld_unit_zero (S := S4) hz1]
  obtain ⟨-, -, -, e4, e5⟩ := idx_facts t
  have hN : cfg3.N = 10 := N_3
  funext j
  obtain ⟨p, q, rfl⟩ : ∃ (p : Fin 10000) (q : Fin 4), j = ix2 p q := ⟨j 0, j 1, eq_ix2 j⟩
  have hlt : t.val * 10000 + p.val < 100000 := by have := t.isLt; have := p.isLt; omega
  have hemb : ((cfg3.win 2).blk t).view.emb (ix2 p q) = ix2 (⟨t.val * 10000 + p.val, hlt⟩ : Fin 100000) q := by
    funext a
    apply Fin.ext
    match a with
    | ⟨0, _⟩ => show win3_2.index t (0 : Fin 2) * 10000 + 1 * p.val = t.val * 10000 + p.val; rw [e4]; omega
    | ⟨1, _⟩ => show win3_2.index t (1 : Fin 2) * 4 + 1 * q.val = q.val; rw [e5]; omega
  show k3_pay1 (F := Ideal) (iblk3 V c 0 t) (iblk3 V c 1 t) (ix2 p q)
      = whole (V c main_v74) (V c main_arg5) (((cfg3.win 2).blk t).view.emb (ix2 p q))
  rw [hemb, iblk_bias V c t]
  exact pay_rows (iblk3 V c 0 t) (V c main_arg5) (V c main_v74) p q ⟨t.val * 10000 + p.val, hlt⟩
    (iblk_rows V c t p q ⟨t.val * 10000 + p.val, hlt⟩ rfl)

/-- An index of the result array is in point t's block iff each coordinate is in the block's range. -/
theorem mem_blk (t : Fin cfg3.N) (i : S100000x4.Idx) :
    i ∈ ((cfg3.win 2).blk t).view.set ↔ ∀ a : Fin 2, win3_2.index t a * S10000x4.size a ≤ (i a).val
      ∧ (i a).val < win3_2.index t a * S10000x4.size a + S10000x4.size a := by
  show i ∈ ((View.whole main_v75).slice (win3_2.rect t)).set ↔ _
  rw [View.set_slice_whole, Rect.mem_set_unit]
  exact Iff.rfl

/-- After the region the result array is tanh of the aggregate plus the bias, both as the region found them: row R
    is written by point R / 10000. -/
theorem value (c : Dev nD) : (dat3 V c).arrAt 2 cfg3.N = whole (V c main_v74) (V c main_arg5) :=
  (dat3 V c).arrAt_eq_of_cover 2 _ (fun t _ => flushed_eq V c t) fun i => by
    have hi0 : (i 0).val < 100000 := (i 0).isLt
    have hi1 : (i 1).val < 4 := (i 1).isLt
    have hN : cfg3.N = 10 := N_3
    have hlt : (i 0).val / 10000 < cfg3.N := by rw [hN]; omega
    obtain ⟨-, -, -, e4, e5⟩ := idx_facts ⟨(i 0).val / 10000, hlt⟩
    refine ⟨⟨(i 0).val / 10000, hlt⟩, flush3_2 _, ?_⟩
    rw [mem_blk]
    intro a
    match a with
    | ⟨0, _⟩ =>
      show win3_2.index ⟨(i 0).val / 10000, hlt⟩ (0 : Fin 2) * 10000 ≤ (i 0).val
        ∧ (i 0).val < win3_2.index ⟨(i 0).val / 10000, hlt⟩ (0 : Fin 2) * 10000 + 10000
      rw [e4]; show (i 0).val / 10000 * 10000 ≤ (i 0).val ∧ (i 0).val < (i 0).val / 10000 * 10000 + 10000; omega
    | ⟨1, _⟩ =>
      show win3_2.index ⟨(i 0).val / 10000, hlt⟩ (1 : Fin 2) * 4 ≤ (i 1).val
        ∧ (i 1).val < win3_2.index ⟨(i 0).val / 10000, hlt⟩ (1 : Fin 2) * 4 + 4
      rw [e5]; omega

end Cert.KernelIdeal.Region3

end
-- ==== Proof.Region4.lean ====
/-
  Region 4: the third layer's feature transform, h · W3.

  The pipeline cuts the [100000, 4] operand into ten blocks of 10000 rows, keeps the [4, 2] matrix whole, and at
  point t writes rows 10000·t … 10000·t + 9999 of the result: the matrix unit's product of block t with the matrix.
  Row r of that block product is row 10000·t + r of the product of the whole operand with the matrix (a row of a
  product depends on that row of the left operand only), and the ten blocks cover all 100000 rows, so after the
  region the result array holds the host's dot_general of the operand and the matrix as the region found them.
-/
import proofs.«176993_j33165737459841_1_alg».proof.Proof.Gen.KernelIdeal.Frame
import proofs.«176993_j33165737459841_1_alg».proof.Proof.Gen.ReferenceIdeal
import proofs.«176993_j33165737459841_1_alg».proof.Proof.LibRowLayers
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen

theorem hz : (![0, 0] : Fin 2 → Nat) = fun _ => 0 := funext fun a => by fin_cases a <;> rfl

/-- The product of the whole operand with the matrix, as the host spells it. -/
abbrev whole (A : FVec Ideal S100000x4 .f32) (B : FVec Ideal S4x2 .f32) : FVec Ideal S100000x2 .f32 :=
  Host.dotGeneral (F := Ideal) Cert.ReferenceIdeal.dot_S100000x4_S4x2_S100000x2_1_0_0_1_n_n none A B

/-- The body's arithmetic on a block whose row p is row R of the whole operand, read at (p, q): the whole product
    at (R, q). -/
theorem pay_rows (x0 : FVec Ideal S10000x4 .f32) (x1 : FVec Ideal S4x2 .f32) (A : FVec Ideal S100000x4 .f32)
    (p : Fin 10000) (q : Fin 2) (R : Fin 100000) (h0 : ∀ k : Fin 4, x0 (ix2 p k) = A (ix2 R k)) :
    k4_pay1 (F := Ideal) x0 x1 (ix2 p q) = whole A x1 (ix2 R q) := by
  unfold k4_pay1
  rw [shapeCast_self]
  exact RowLayers.product_rows (M := 100000) (m := 10000) (K := 4) (N := 2) A x1 x0 bitsLt_bf16_f32 p R q h0

variable (V : (c : Dev nD) → (b : Ref sig .tc) → Buf (Elt Ideal) ((c : Thread nD τ).loc b))

/-- The printed index maps over the grid: the operand's and the result's blocks move down with the point, the
    matrix stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The matrix's one block is the matrix. -/
theorem iblk_matrix (c : Dev nD) (t : Fin cfg4.N) : (iblk4 V c 1 t : FVec Ideal S4x2 .f32) = V c main_arg6 := by
  obtain ⟨-, -, e2, e3, -, -⟩ := idx_facts t
  funext y
  unfold iblk4
  rw [View.read_apply]
  show V c main_arg6 (((cfg4.win 1).blk t).view.emb y) = V c main_arg6 y
  refine congrArg _ (funext fun a => Fin.ext ?_)
  match a with
  | ⟨0, _⟩ => show win4_1.index t (0 : Fin 2) * 4 + 1 * (y 0).val = (y 0).val; rw [e2]; omega
  | ⟨1, _⟩ => show win4_1.index t (1 : Fin 2) * 2 + 1 * (y 1).val = (y 1).val; rw [e3]; omega

/-- Row p of the operand's block at point t is row 10000·t + p of the operand. -/
theorem iblk_rows (c : Dev nD) (t : Fin cfg4.N) (p : Fin 10000) (k : Fin 4) (R : Fin 100000)
    (hR : R.val = t.val * 10000 + p.val) :
    (iblk4 V c 0 t : FVec Ideal S10000x4 .f32) (ix2 p k) = (V c main_v75 : FVec Ideal S100000x4 .f32) (ix2 R k) := by
  obtain ⟨e0, e1, -, -, -, -⟩ := idx_facts t
  unfold iblk4
  rw [View.read_apply]
  show V c main_v75 (((cfg4.win 0).blk t).view.emb (ix2 p k)) = V c main_v75 (ix2 R k)
  refine congrArg _ (funext fun a => Fin.ext ?_)
  match a with
  | ⟨0, _⟩ => show win4_0.index t (0 : Fin 2) * 10000 + 1 * p.val = R.val; rw [e0, hR]; omega
  | ⟨1, _⟩ => show win4_0.index t (1 : Fin 2) * 4 + 1 * k.val = k.val; rw [e1]; omega

/-- What point t writes back is block t of the whole product. -/
theorem flushed_eq (c : Dev nD) (t : Fin cfg4.N) :
    (dat4 V c).flushed 2 t = ((cfg4.win 2).blk t).view.read (Elt Ideal) (whole (V c main_v75) (V c main_arg6)) := by
  show (cfg4.win 2).cut (grid4.coords t) ((dat4 V c).after 2 t) = _
  rw [after4_2]
  unfold out4_2
  rw [View.canon_unit_zero hz]
  simp only [View.ld_unit_zero (S := S10000x4) hz, View.ld_unit_zero (S := S4x2) hz]
  obtain ⟨-, -, -, -, e4, e5⟩ := idx_facts t
  have hN : cfg4.N = 10 := N_4
  funext j
  obtain ⟨p, q, rfl⟩ : ∃ (p : Fin 10000) (q : Fin 2), j = ix2 p q := ⟨j 0, j 1, eq_ix2 j⟩
  have hlt : t.val * 10000 + p.val < 100000 := by have := t.isLt; have := p.isLt; omega
  have hemb : ((cfg4.win 2).blk t).view.emb (ix2 p q) = ix2 (⟨t.val * 10000 + p.val, hlt⟩ : Fin 100000) q := by
    funext a
    apply Fin.ext
    match a with
    | ⟨0, _⟩ => show win4_2.index t (0 : Fin 2) * 10000 + 1 * p.val = t.val * 10000 + p.val; rw [e4]; omega
    | ⟨1, _⟩ => show win4_2.index t (1 : Fin 2) * 2 + 1 * q.val = q.val; rw [e5]; omega
  show k4_pay1 (F := Ideal) (iblk4 V c 0 t) (iblk4 V c 1 t) (ix2 p q)
      = whole (V c main_v75) (V c main_arg6) (((cfg4.win 2).blk t).view.emb (ix2 p q))
  rw [hemb, iblk_matrix V c t]
  exact pay_rows (iblk4 V c 0 t) (V c main_arg6) (V c main_v75) p q ⟨t.val * 10000 + p.val, hlt⟩
    (fun k => iblk_rows V c t p k ⟨t.val * 10000 + p.val, hlt⟩ rfl)

/-- An index of the result array is in point t's block iff each coordinate is in the block's range. -/
theorem mem_blk (t : Fin cfg4.N) (i : S100000x2.Idx) :
    i ∈ ((cfg4.win 2).blk t).view.set ↔ ∀ a : Fin 2, win4_2.index t a * S10000x2.size a ≤ (i a).val
      ∧ (i a).val < win4_2.index t a * S10000x2.size a + S10000x2.size a := by
  show i ∈ ((View.whole main_v76).slice (win4_2.rect t)).set ↔ _
  rw [View.set_slice_whole, Rect.mem_set_unit]
  exact Iff.rfl

/-- After the region the result array is the whole product of the operand and the matrix as the region found them:
    row R is written by point R / 10000. -/
theorem value (c : Dev nD) : (dat4 V c).arrAt 2 cfg4.N = whole (V c main_v75) (V c main_arg6) :=
  (dat4 V c).arrAt_eq_of_cover 2 _ (fun t _ => flushed_eq V c t) fun i => by
    have hi0 : (i 0).val < 100000 := (i 0).isLt
    have hi1 : (i 1).val < 2 := (i 1).isLt
    have hN : cfg4.N = 10 := N_4
    have hlt : (i 0).val / 10000 < cfg4.N := by rw [hN]; omega
    obtain ⟨-, -, -, -, e4, e5⟩ := idx_facts ⟨(i 0).val / 10000, hlt⟩
    refine ⟨⟨(i 0).val / 10000, hlt⟩, flush4_2 _, ?_⟩
    rw [mem_blk]
    intro a
    match a with
    | ⟨0, _⟩ =>
      show win4_2.index ⟨(i 0).val / 10000, hlt⟩ (0 : Fin 2) * 10000 ≤ (i 0).val
        ∧ (i 0).val < win4_2.index ⟨(i 0).val / 10000, hlt⟩ (0 : Fin 2) * 10000 + 10000
      rw [e4]; show (i 0).val / 10000 * 10000 ≤ (i 0).val ∧ (i 0).val < (i 0).val / 10000 * 10000 + 10000; omega
    | ⟨1, _⟩ =>
      show win4_2.index ⟨(i 0).val / 10000, hlt⟩ (1 : Fin 2) * 2 ≤ (i 1).val
        ∧ (i 1).val < win4_2.index ⟨(i 0).val / 10000, hlt⟩ (1 : Fin 2) * 2 + 2
      rw [e5]; omega

end Cert.KernelIdeal.Region4

end
-- ==== Proof.Region5.lean ====
/-
  Region 5: the third layer's bias and activation, tanh (agg + b3).

  The pipeline cuts the [100000, 2] aggregate into ten blocks of 10000 rows, keeps the bias vector whole, and at
  point t writes rows 10000·t … 10000·t + 9999 of the result: tanh of the block plus the bias spread over the rows.
  Entry (r, q) of that is tanh (x(10000·t + r, q) + b(q)), which is entry (10000·t + r, q) of tanh of the whole
  aggregate plus the bias broadcast over its rows; the ten blocks cover all 100000 rows.
-/
import proofs.«176993_j33165737459841_1_alg».proof.Proof.Gen.KernelIdeal.Frame
import proofs.«176993_j33165737459841_1_alg».proof.Proof.Gen.ReferenceIdeal
import proofs.«176993_j33165737459841_1_alg».proof.Proof.LibRowLayers
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region5

open Cert.KernelIdeal Cert.KernelIdeal.Gen

theorem hz : (![0, 0] : Fin 2 → Nat) = fun _ => 0 := funext fun a => by fin_cases a <;> rfl
theorem hz1 : (![0] : Fin 1 → Nat) = fun _ => 0 := funext fun a => by fin_cases a; rfl

/-- tanh of the whole aggregate plus the bias over its rows, as the host spells it. -/
abbrev whole (X : FVec Ideal S100000x2 .f32) (b : FVec Ideal S2 .f32) : FVec Ideal S100000x2 .f32 :=
  Host.tanh (addf X (broadcastInDim Cert.ReferenceIdeal.S100000x2 ![0, 1] Cert.ReferenceIdeal.Facts₀.bcast_S1x2_S100000x2_0_1
    (broadcastInDim Cert.ReferenceIdeal.S1x2 ![1] Cert.ReferenceIdeal.Facts₀.bcast_S2_S1x2_1 b)))

/-- The body's arithmetic on a block whose entry (p, q) is entry (R, q) of the whole aggregate, read at (p, q). -/
theorem pay_rows (x0 : FVec Ideal S10000x2 .f32) (x1 : FVec Ideal S2 .f32) (X : FVec Ideal S100000x2 .f32)
    (p : Fin 10000) (q : Fin 2) (R : Fin 100000) (h0 : x0 (ix2 p q) = X (ix2 R q)) :
    k5_pay1 (F := Ideal) x0 x1 (ix2 p q) = whole X x1 (ix2 R q) := by
  unfold k5_pay1
  exact RowLayers.bias_tanh_rows (M := 100000) (m := 10000) (N := 2) X x1 x0 shapeCasts_S10000x2_S10000x2
    shapeCasts_S2_S1x2 broadcasts_S1x2_S10000x2 Cert.ReferenceIdeal.Facts₀.bcast_S2_S1x2_1
    Cert.ReferenceIdeal.Facts₀.bcast_S1x2_S100000x2_0_1 p R q h0

variable (V : (c : Dev nD) → (b : Ref sig .tc) → Buf (Elt Ideal) ((c : Thread nD τ).loc b))

/-- The printed index maps over the grid: the aggregate's and the result's blocks move down with the point, the
    bias stays. -/
theorem idx_facts : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

/-- The bias's one block is the bias. -/
theorem iblk_bias (c : Dev nD) (t : Fin cfg5.N) : (iblk5 V c 1 t : FVec Ideal S2 .f32) = V c main_arg7 := by
  obtain ⟨-, -, e2, -, -⟩ := idx_facts t
  funext y
  unfold iblk5
  rw [View.read_apply]
  show V c main_arg7 (((cfg5.win 1).blk t).view.emb y) = V c main_arg7 y
  refine congrArg _ (funext fun a => Fin.ext ?_)
  match a with
  | ⟨0, _⟩ => show win5_1.index t (0 : Fin 1) * 2 + 1 * (y 0).val = (y 0).val; rw [e2]; omega

/-- Row p of the aggregate's block at point t is row 10000·t + p of the aggregate. -/
theorem iblk_rows (c : Dev nD) (t : Fin cfg5.N) (p : Fin 10000) (k : Fin 2) (R : Fin 100000)
    (hR : R.val = t.val * 10000 + p.val) :
    (iblk5 V c 0 t : FVec Ideal S10000x2 .f32) (ix2 p k) = (V c main_v96 : FVec Ideal S100000x2 .f32) (ix2 R k) := by
  obtain ⟨e0, e1, -, -, -⟩ := idx_facts t
  unfold iblk5
  rw [View.read_apply]
  show V c main_v96 (((cfg5.win 0).blk t).view.emb (ix2 p k)) = V c main_v96 (ix2 R k)
  refine congrArg _ (funext fun a => Fin.ext ?_)
  match a with
  | ⟨0, _⟩ => show win5_0.index t (0 : Fin 2) * 10000 + 1 * p.val = R.val; rw [e0, hR]; omega
  | ⟨1, _⟩ => show win5_0.index t (1 : Fin 2) * 2 + 1 * k.val = k.val; rw [e1]; omega

/-- What point t writes back is block t of the whole activation. -/
theorem flushed_eq (c : Dev nD) (t : Fin cfg5.N) :
    (dat5 V c).flushed 2 t = ((cfg5.win 2).blk t).view.read (Elt Ideal) (whole (V c main_v96) (V c main_arg7)) := by
  show (cfg5.win 2).cut (grid5.coords t) ((dat5 V c).after 2 t) = _
  rw [after5_2]
  unfold out5_2
  rw [View.canon_unit_zero hz]
  simp only [View.ld_unit_zero (S := S10000x2) hz, View.ld_unit_zero (S := S2) hz1]
  obtain ⟨-, -, -, e4, e5⟩ := idx_facts t
  have hN : cfg5.N = 10 := N_5
  funext j
  obtain ⟨p, q, rfl⟩ : ∃ (p : Fin 10000) (q : Fin 2), j = ix2 p q := ⟨j 0, j 1, eq_ix2 j⟩
  have hlt : t.val * 10000 + p.val < 100000 := by have := t.isLt; have := p.isLt; omega
  have hemb : ((cfg5.win 2).blk t).view.emb (ix2 p q) = ix2 (⟨t.val * 10000 + p.val, hlt⟩ : Fin 100000) q := by
    funext a
    apply Fin.ext
    match a with
    | ⟨0, _⟩ => show win5_2.index t (0 : Fin 2) * 10000 + 1 * p.val = t.val * 10000 + p.val; rw [e4]; omega
    | ⟨1, _⟩ => show win5_2.index t (1 : Fin 2) * 2 + 1 * q.val = q.val; rw [e5]; omega
  show k5_pay1 (F := Ideal) (iblk5 V c 0 t) (iblk5 V c 1 t) (ix2 p q)
      = whole (V c main_v96) (V c main_arg7) (((cfg5.win 2).blk t).view.emb (ix2 p q))
  rw [hemb, iblk_bias V c t]
  exact pay_rows (iblk5 V c 0 t) (V c main_arg7) (V c main_v96) p q ⟨t.val * 10000 + p.val, hlt⟩
    (iblk_rows V c t p q ⟨t.val * 10000 + p.val, hlt⟩ rfl)

/-- An index of the result array is in point t's block iff each coordinate is in the block's range. -/
theorem mem_blk (t : Fin cfg5.N) (i : S100000x2.Idx) :
    i ∈ ((cfg5.win 2).blk t).view.set ↔ ∀ a : Fin 2, win5_2.index t a * S10000x2.size a ≤ (i a).val
      ∧ (i a).val < win5_2.index t a * S10000x2.size a + S10000x2.size a := by
  show i ∈ ((View.whole main_v97).slice (win5_2.rect t)).set ↔ _
  rw [View.set_slice_whole, Rect.mem_set_unit]
  exact Iff.rfl

/-- After the region the result array is tanh of the aggregate plus the bias, both as the region found them: row R
    is written by point R / 10000. -/
theorem value (c : Dev nD) : (dat5 V c).arrAt 2 cfg5.N = whole (V c main_v96) (V c main_arg7) :=
  (dat5 V c).arrAt_eq_of_cover 2 _ (fun t _ => flushed_eq V c t) fun i => by
    have hi0 : (i 0).val < 100000 := (i 0).isLt
    have hi1 : (i 1).val < 2 := (i 1).isLt
    have hN : cfg5.N = 10 := N_5
    have hlt : (i 0).val / 10000 < cfg5.N := by rw [hN]; omega
    obtain ⟨-, -, -, e4, e5⟩ := idx_facts ⟨(i 0).val / 10000, hlt⟩
    refine ⟨⟨(i 0).val / 10000, hlt⟩, flush5_2 _, ?_⟩
    rw [mem_blk]
    intro a
    match a with
    | ⟨0, _⟩ =>
      show win5_2.index ⟨(i 0).val / 10000, hlt⟩ (0 : Fin 2) * 10000 ≤ (i 0).val
        ∧ (i 0).val < win5_2.index ⟨(i 0).val / 10000, hlt⟩ (0 : Fin 2) * 10000 + 10000
      rw [e4]; show (i 0).val / 10000 * 10000 ≤ (i 0).val ∧ (i 0).val < (i 0).val / 10000 * 10000 + 10000; omega
    | ⟨1, _⟩ =>
      show win5_2.index ⟨(i 0).val / 10000, hlt⟩ (1 : Fin 2) * 2 ≤ (i 1).val
        ∧ (i 1).val < win5_2.index ⟨(i 0).val / 10000, hlt⟩ (1 : Fin 2) * 2 + 2
      rw [e5]; omega

end Cert.KernelIdeal.Region5

end
-- ==== Proof.Region6.lean ====
/-
  Region 6: the classifier, h · Wc + bc.

  The pipeline cuts the [100000, 2] operand into ten blocks of 10000 rows, keeps the [2, 7] matrix and the bias vector
  whole, and at point t writes rows 10000·t … 10000·t + 9999 of the result: the matrix unit's product of block t with
  the matrix, plus the bias spread over the rows. Entry (r, q) of that is Σ_k h(10000·t + r, k) · Wc(k, q) + bc(q),
  which is entry (10000·t + r, q) of the host's dot_general of the whole operand with the matrix plus the bias
  broadcast over the rows; the ten blocks cover all 100000 rows.
-/
import proofs.«176993_j33165737459841_1_alg».proof.Proof.Gen.KernelIdeal.Frame
import proofs.«176993_j33165737459841_1_alg».proof.Proof.Gen.ReferenceIdeal
import proofs.«176993_j33165737459841_1_alg».proof.Proof.LibRowLayers
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region6

open Cert.KernelIdeal Cert.KernelIdeal.Gen

theorem hz : (![0, 0] : Fin 2 → Nat) = fun _ => 0 := funext fun a => by fin_cases a <;> rfl
theorem hz1 : (![0] : Fin 1 → Nat) = fun _ => 0 := funext fun a => by fin_cases a; rfl

/-- The whole product plus the bias over its rows, as the host spells it. -/
abbrev whole (A : FVec Ideal S100000x2 .f32) (B : FVec Ideal S2x7 .f32) (b : FVec Ideal S7 .f32) : FVec Ideal S100000x7 .f32 :=
  addf (Host.dotGeneral (F := Ideal) Cert.ReferenceIdeal.dot_S100000x2_S2x7_S100000x7_1_0_0_1_n_n none A B)
    (broadcastInDim Cert.ReferenceIdeal.S100000x7 ![0, 1] Cert.ReferenceIdeal.Facts₀.bcast_S1x7_S100000x7_0_1
      (broadcastInDim Cert.ReferenceIdeal.S1x7 ![1] Cert.ReferenceIdeal.Facts₀.bcast_S7_S1x7_1 b))

/-- The body's arithmetic on a block whose row p is row R of the whole operand, read at (p, q). -/
theorem pay_rows (x0 : FVec Ideal S10000x2 .f32) (x1 : FVec Ideal S2x7 .f32) (x2 : FVec Ideal S7 .f32)
    (A : FVec Ideal S100000x2 .f32) (p : Fin 10000) (q : Fin 7) (R : Fin 100000)
    (h0 : ∀ k : Fin 2, x0 (ix2 p k) = A (ix2 R k)) :
    k6_pay1 (F := Ideal) x0 x1 x2 (ix2 p q) = whole A x1 x2 (ix2 R q) := by
  unfold k6_pay1
  rw [shapeCast_self]
  exact RowLayers.dense_rows (M := 100000) (m := 10000) (K := 2) (N := 7) A x1 x2 x0 bitsLt_bf16_f32
    shapeCasts_S7_S1x7 broadcasts_S1x7_S10000x7 Cert.ReferenceIdeal.Facts₀.bcast_S7_S1x7_1
    Cert.ReferenceIdeal.Facts₀.bcast_S1x7_S100000x7_0_1 p R q h0

variable (V : (c : Dev nD) → (b : Ref sig .tc) → Buf (Elt Ideal) ((c : Thread nD τ).loc b))

/-- The printed index maps over the grid: the operand's and the result's blocks move down with the point, the matrix
    and the bias stay. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = t.val ∧ win6_3.index t (1 : Fin 2) = 0 :=
  (by decide +kernel : ∀ t : Fin grid6.N, _)

/-- The matrix's one block is the matrix. -/
theorem iblk_matrix (c : Dev nD) (t : Fin cfg6.N) : (iblk6 V c 1 t : FVec Ideal S2x7 .f32) = V c main_arg8 := by
  obtain ⟨-, -, e2, e3, -, -, -⟩ := idx_facts t
  funext y
  unfold iblk6
  rw [View.read_apply]
  show V c main_arg8 (((cfg6.win 1).blk t).view.emb y) = V c main_arg8 y
  refine congrArg _ (funext fun a => Fin.ext ?_)
  match a with
  | ⟨0, _⟩ => show win6_1.index t (0 : Fin 2) * 2 + 1 * (y 0).val = (y 0).val; rw [e2]; omega
  | ⟨1, _⟩ => show win6_1.index t (1 : Fin 2) * 7 + 1 * (y 1).val = (y 1).val; rw [e3]; omega

/-- The bias's one block is the bias. -/
theorem iblk_bias (c : Dev nD) (t : Fin cfg6.N) : (iblk6 V c 2 t : FVec Ideal S7 .f32) = V c main_arg9 := by
  obtain ⟨-, -, -, -, e4, -, -⟩ := idx_facts t
  funext y
  unfold iblk6
  rw [View.read_apply]
  show V c main_arg9 (((cfg6.win 2).blk t).view.emb y) = V c main_arg9 y
  refine congrArg _ (funext fun a => Fin.ext ?_)
  match a with
  | ⟨0, _⟩ => show win6_2.index t (0 : Fin 1) * 7 + 1 * (y 0).val = (y 0).val; rw [e4]; omega

/-- Row p of the operand's block at point t is row 10000·t + p of the operand. -/
theorem iblk_rows (c : Dev nD) (t : Fin cfg6.N) (p : Fin 10000) (k : Fin 2) (R : Fin 100000)
    (hR : R.val = t.val * 10000 + p.val) :
    (iblk6 V c 0 t : FVec Ideal S10000x2 .f32) (ix2 p k) = (V c main_v97 : FVec Ideal S100000x2 .f32) (ix2 R k) := by
  obtain ⟨e0, e1, -, -, -, -, -⟩ := idx_facts t
  unfold iblk6
  rw [View.read_apply]
  show V c main_v97 (((cfg6.win 0).blk t).view.emb (ix2 p k)) = V c main_v97 (ix2 R k)
  refine congrArg _ (funext fun a => Fin.ext ?_)
  match a with
  | ⟨0, _⟩ => show win6_0.index t (0 : Fin 2) * 10000 + 1 * p.val = R.val; rw [e0, hR]; omega
  | ⟨1, _⟩ => show win6_0.index t (1 : Fin 2) * 2 + 1 * k.val = k.val; rw [e1]; omega

/-- What point t writes back is block t of the whole layer. -/
theorem flushed_eq (c : Dev nD) (t : Fin cfg6.N) :
    (dat6 V c).flushed 3 t
      = ((cfg6.win 3).blk t).view.read (Elt Ideal) (whole (V c main_v97) (V c main_arg8) (V c main_arg9)) := by
  show (cfg6.win 3).cut (grid6.coords t) ((dat6 V c).after 3 t) = _
  rw [after6_3]
  unfold out6_3
  rw [View.canon_unit_zero hz]
  simp only [View.ld_unit_zero (S := S10000x2) hz, View.ld_unit_zero (S := S2x7) hz, View.ld_unit_zero (S := S7) hz1]
  obtain ⟨-, -, -, -, -, e5, e6⟩ := idx_facts t
  have hN : cfg6.N = 10 := N_6
  funext j
  obtain ⟨p, q, rfl⟩ : ∃ (p : Fin 10000) (q : Fin 7), j = ix2 p q := ⟨j 0, j 1, eq_ix2 j⟩
  have hlt : t.val * 10000 + p.val < 100000 := by have := t.isLt; have := p.isLt; omega
  have hemb : ((cfg6.win 3).blk t).view.emb (ix2 p q) = ix2 (⟨t.val * 10000 + p.val, hlt⟩ : Fin 100000) q := by
    funext a
    apply Fin.ext
    match a with
    | ⟨0, _⟩ => show win6_3.index t (0 : Fin 2) * 10000 + 1 * p.val = t.val * 10000 + p.val; rw [e5]; omega
    | ⟨1, _⟩ => show win6_3.index t (1 : Fin 2) * 7 + 1 * q.val = q.val; rw [e6]; omega
  show k6_pay1 (F := Ideal) (iblk6 V c 0 t) (iblk6 V c 1 t) (iblk6 V c 2 t) (ix2 p q)
      = whole (V c main_v97) (V c main_arg8) (V c main_arg9) (((cfg6.win 3).blk t).view.emb (ix2 p q))
  rw [hemb, iblk_matrix V c t, iblk_bias V c t]
  exact pay_rows (iblk6 V c 0 t) (V c main_arg8) (V c main_arg9) (V c main_v97) p q ⟨t.val * 10000 + p.val, hlt⟩
    (fun k => iblk_rows V c t p k ⟨t.val * 10000 + p.val, hlt⟩ rfl)

/-- An index of the result array is in point t's block iff each coordinate is in the block's range. -/
theorem mem_blk (t : Fin cfg6.N) (i : S100000x7.Idx) :
    i ∈ ((cfg6.win 3).blk t).view.set ↔ ∀ a : Fin 2, win6_3.index t a * S10000x7.size a ≤ (i a).val
      ∧ (i a).val < win6_3.index t a * S10000x7.size a + S10000x7.size a := by
  show i ∈ ((View.whole main_v98).slice (win6_3.rect t)).set ↔ _
  rw [View.set_slice_whole, Rect.mem_set_unit]
  exact Iff.rfl

/-- After the region the result array is the whole layer of the operand, the matrix and the bias as the region found
    them: row R is written by point R / 10000. -/
theorem value (c : Dev nD) :
    (dat6 V c).arrAt 3 cfg6.N = whole (V c main_v97) (V c main_arg8) (V c main_arg9) :=
  (dat6 V c).arrAt_eq_of_cover 3 _ (fun t _ => flushed_eq V c t) fun i => by
    have hi0 : (i 0).val < 100000 := (i 0).isLt
    have hi1 : (i 1).val < 7 := (i 1).isLt
    have hN : cfg6.N = 10 := N_6
    have hlt : (i 0).val / 10000 < cfg6.N := by rw [hN]; omega
    obtain ⟨-, -, -, -, -, e5, e6⟩ := idx_facts ⟨(i 0).val / 10000, hlt⟩
    refine ⟨⟨(i 0).val / 10000, hlt⟩, flush6_3 _, ?_⟩
    rw [mem_blk]
    intro a
    match a with
    | ⟨0, _⟩ =>
      show win6_3.index ⟨(i 0).val / 10000, hlt⟩ (0 : Fin 2) * 10000 ≤ (i 0).val
        ∧ (i 0).val < win6_3.index ⟨(i 0).val / 10000, hlt⟩ (0 : Fin 2) * 10000 + 10000
      rw [e5]; show (i 0).val / 10000 * 10000 ≤ (i 0).val ∧ (i 0).val < (i 0).val / 10000 * 10000 + 10000; omega
    | ⟨1, _⟩ =>
      show win6_3.index ⟨(i 0).val / 10000, hlt⟩ (1 : Fin 2) * 7 ≤ (i 1).val
        ∧ (i 1).val < win6_3.index ⟨(i 0).val / 10000, hlt⟩ (1 : Fin 2) * 7 + 7
      rw [e6]; omega

end Cert.KernelIdeal.Region6

end
-- ==== Proof.Kept.lean ====
/-
  What the segments of the kernel program leave alone.

  The arguments are written by nothing. The two edge lists (sources, targets) and the two normalisation columns
  (1/sqrt(deg src · deg dst) per edge, 1/deg per node) are computed by the host operations before the first region
  and read, never written, by everything after. A region changes only its own result array; a stretch of host
  operations only its own result buffers. So each of these buffers holds, at every later boundary, what it held
  when it was last written: the launch contents for an argument, the contents at the first region's entry for the
  four precomputed buffers.
-/
import proofs.«176993_j33165737459841_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no operation of a stretch writes holds after the stretch what it held before: each operation's
    one result buffer is another reference. -/
macro "host_keeps" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Across one segment -/

section Steps
variable (c : Dev nD) (b : Ref sig .tc)

theorem s01 (h : W1 m ρ c (Proc.devRef .tc b) = W0 m ρ c (Proc.devRef .tc b)) :
    W1 m ρ c (Proc.devRef .tc b) = m ((c : Thread nD τ).loc b) := h.trans rfl
theorem s12 (h : ∀ w, Pipeline.arrRef spec0 w ≠ b) : W2 m ρ c (Proc.devRef .tc b) = W1 m ρ c (Proc.devRef .tc b) :=
  W2_of_ne m ρ c b h
theorem s34 (h : ∀ w, Pipeline.arrRef spec1 w ≠ b) : W4 m ρ c (Proc.devRef .tc b) = W3 m ρ c (Proc.devRef .tc b) :=
  W4_of_ne m ρ c b h
theorem s45 (h : ∀ w, Pipeline.arrRef spec2 w ≠ b) : W5 m ρ c (Proc.devRef .tc b) = W4 m ρ c (Proc.devRef .tc b) :=
  W5_of_ne m ρ c b h
theorem s67 (h : ∀ w, Pipeline.arrRef spec3 w ≠ b) : W7 m ρ c (Proc.devRef .tc b) = W6 m ρ c (Proc.devRef .tc b) :=
  W7_of_ne m ρ c b h
theorem s78 (h : ∀ w, Pipeline.arrRef spec4 w ≠ b) : W8 m ρ c (Proc.devRef .tc b) = W7 m ρ c (Proc.devRef .tc b) :=
  W8_of_ne m ρ c b h
theorem s9a (h : ∀ w, Pipeline.arrRef spec5 w ≠ b) : W10 m ρ c (Proc.devRef .tc b) = W9 m ρ c (Proc.devRef .tc b) :=
  W10_of_ne m ρ c b h
end Steps

/-! ## The arguments, at the boundary where a region reads each -/

variable (c : Dev nD)

theorem W1_arg0 : W1 m ρ c (Proc.devRef .tc main_arg0) = m ((c : Thread nD τ).loc main_arg0) :=
  s01 m ρ c main_arg0 (by host_keeps hostOps0)
theorem W1_arg2 : W1 m ρ c (Proc.devRef .tc main_arg2) = m ((c : Thread nD τ).loc main_arg2) :=
  s01 m ρ c main_arg2 (by host_keeps hostOps0)

theorem W3_arg3 : W3 m ρ c (Proc.devRef .tc main_arg3) = m ((c : Thread nD τ).loc main_arg3) :=
  calc W3 m ρ c (Proc.devRef .tc main_arg3)
    _ = W2 m ρ c (Proc.devRef .tc main_arg3) := by host_keeps hostOps1
    _ = W1 m ρ c (Proc.devRef .tc main_arg3) := s12 m ρ c main_arg3 (by decide)
    _ = m ((c : Thread nD τ).loc main_arg3) := s01 m ρ c main_arg3 (by host_keeps hostOps0)

theorem W3_of_arg (b : Ref sig .tc) (h3 : W3 m ρ c (Proc.devRef .tc b) = W2 m ρ c (Proc.devRef .tc b))
    (h2 : ∀ w, Pipeline.arrRef spec0 w ≠ b) (h1 : W1 m ρ c (Proc.devRef .tc b) = W0 m ρ c (Proc.devRef .tc b)) :
    W3 m ρ c (Proc.devRef .tc b) = m ((c : Thread nD τ).loc b) :=
  h3.trans ((s12 m ρ c b h2).trans (s01 m ρ c b h1))

theorem W4_arg4 : W4 m ρ c (Proc.devRef .tc main_arg4) = m ((c : Thread nD τ).loc main_arg4) :=
  (s34 m ρ c main_arg4 (by decide)).trans
    (W3_of_arg m ρ c main_arg4 (by host_keeps hostOps1) (by decide) (by host_keeps hostOps0))

theorem W6_of_arg (b : Ref sig .tc) (h6 : W6 m ρ c (Proc.devRef .tc b) = W5 m ρ c (Proc.devRef .tc b))
    (h5 : ∀ w, Pipeline.arrRef spec2 w ≠ b) (h4 : ∀ w, Pipeline.arrRef spec1 w ≠ b)
    (h3 : W3 m ρ c (Proc.devRef .tc b) = W2 m ρ c (Proc.devRef .tc b))
    (h2 : ∀ w, Pipeline.arrRef spec0 w ≠ b) (h1 : W1 m ρ c (Proc.devRef .tc b) = W0 m ρ c (Proc.devRef .tc b)) :
    W6 m ρ c (Proc.devRef .tc b) = m ((c : Thread nD τ).loc b) :=
  h6.trans ((s45 m ρ c b h5).trans ((s34 m ρ c b h4).trans (W3_of_arg m ρ c b h3 h2 h1)))

theorem W6_arg5 : W6 m ρ c (Proc.devRef .tc main_arg5) = m ((c : Thread nD τ).loc main_arg5) :=
  W6_of_arg m ρ c main_arg5 (by host_keeps hostOps3) (by decide) (by decide) (by host_keeps hostOps1) (by decide)
    (by host_keeps hostOps0)

theorem W7_arg6 : W7 m ρ c (Proc.devRef .tc main_arg6) = m ((c : Thread nD τ).loc main_arg6) :=
  (s67 m ρ c main_arg6 (by decide)).trans
    (W6_of_arg m ρ c main_arg6 (by host_keeps hostOps3) (by decide) (by decide) (by host_keeps hostOps1) (by decide)
      (by host_keeps hostOps0))

theorem W9_of_arg (b : Ref sig .tc) (h9 : W9 m ρ c (Proc.devRef .tc b) = W8 m ρ c (Proc.devRef .tc b))
    (h8 : ∀ w, Pipeline.arrRef spec4 w ≠ b) (h7 : ∀ w, Pipeline.arrRef spec3 w ≠ b)
    (h6 : W6 m ρ c (Proc.devRef .tc b) = W5 m ρ c (Proc.devRef .tc b))
    (h5 : ∀ w, Pipeline.arrRef spec2 w ≠ b) (h4 : ∀ w, Pipeline.arrRef spec1 w ≠ b)
    (h3 : W3 m ρ c (Proc.devRef .tc b) = W2 m ρ c (Proc.devRef .tc b))
    (h2 : ∀ w, Pipeline.arrRef spec0 w ≠ b) (h1 : W1 m ρ c (Proc.devRef .tc b) = W0 m ρ c (Proc.devRef .tc b)) :
    W9 m ρ c (Proc.devRef .tc b) = m ((c : Thread nD τ).loc b) :=
  h9.trans ((s78 m ρ c b h8).trans ((s67 m ρ c b h7).trans (W6_of_arg m ρ c b h6 h5 h4 h3 h2 h1)))

theorem W9_arg7 : W9 m ρ c (Proc.devRef .tc main_arg7) = m ((c : Thread nD τ).loc main_arg7) :=
  W9_of_arg m ρ c main_arg7 (by host_keeps hostOps5) (by decide) (by decide) (by host_keeps hostOps3) (by decide)
    (by decide) (by host_keeps hostOps1) (by decide) (by host_keeps hostOps0)

theorem W10_arg8 : W10 m ρ c (Proc.devRef .tc main_arg8) = m ((c : Thread nD τ).loc main_arg8) :=
  (s9a m ρ c main_arg8 (by decide)).trans
    (W9_of_arg m ρ c main_arg8 (by host_keeps hostOps5) (by decide) (by decide) (by host_keeps hostOps3) (by decide)
      (by decide) (by host_keeps hostOps1) (by decide) (by host_keeps hostOps0))

theorem W10_arg9 : W10 m ρ c (Proc.devRef .tc main_arg9) = m ((c : Thread nD τ).loc main_arg9) :=
  (s9a m ρ c main_arg9 (by decide)).trans
    (W9_of_arg m ρ c main_arg9 (by host_keeps hostOps5) (by decide) (by decide) (by host_keeps hostOps3) (by decide)
      (by decide) (by host_keeps hostOps1) (by decide) (by host_keeps hostOps0))

/-! ## The edge lists and the normalisation columns, at the three stretches that read them -/

theorem W2_pre (b : Ref sig .tc) (h2 : ∀ w, Pipeline.arrRef spec0 w ≠ b) :
    W2 m ρ c (Proc.devRef .tc b) = W1 m ρ c (Proc.devRef .tc b) := s12 m ρ c b h2

theorem W5_pre (b : Ref sig .tc) (h5 : ∀ w, Pipeline.arrRef spec2 w ≠ b) (h4 : ∀ w, Pipeline.arrRef spec1 w ≠ b)
    (h3 : W3 m ρ c (Proc.devRef .tc b) = W2 m ρ c (Proc.devRef .tc b)) (h2 : ∀ w, Pipeline.arrRef spec0 w ≠ b) :
    W5 m ρ c (Proc.devRef .tc b) = W1 m ρ c (Proc.devRef .tc b) :=
  (s45 m ρ c b h5).trans ((s34 m ρ c b h4).trans (h3.trans (s12 m ρ c b h2)))

theorem W8_pre (b : Ref sig .tc) (h8 : ∀ w, Pipeline.arrRef spec4 w ≠ b) (h7 : ∀ w, Pipeline.arrRef spec3 w ≠ b)
    (h6 : W6 m ρ c (Proc.devRef .tc b) = W5 m ρ c (Proc.devRef .tc b))
    (h5 : ∀ w, Pipeline.arrRef spec2 w ≠ b) (h4 : ∀ w, Pipeline.arrRef spec1 w ≠ b)
    (h3 : W3 m ρ c (Proc.devRef .tc b) = W2 m ρ c (Proc.devRef .tc b)) (h2 : ∀ w, Pipeline.arrRef spec0 w ≠ b) :
    W8 m ρ c (Proc.devRef .tc b) = W1 m ρ c (Proc.devRef .tc b) :=
  (s78 m ρ c b h8).trans ((s67 m ρ c b h7).trans (h6.trans (W5_pre m ρ c b h5 h4 h3 h2)))

theorem W2_v1 : W2 m ρ c (Proc.devRef .tc main_v1) = W1 m ρ c (Proc.devRef .tc main_v1) :=
  W2_pre m ρ c main_v1 (by decide)
theorem W5_v1 : W5 m ρ c (Proc.devRef .tc main_v1) = W1 m ρ c (Proc.devRef .tc main_v1) :=
  W5_pre m ρ c main_v1 (by decide) (by decide) (by host_keeps hostOps1) (by decide)
theorem W8_v1 : W8 m ρ c (Proc.devRef .tc main_v1) = W1 m ρ c (Proc.devRef .tc main_v1) :=
  W8_pre m ρ c main_v1 (by decide) (by decide) (by host_keeps hostOps3) (by decide) (by decide) (by host_keeps hostOps1)
    (by decide)
theorem W2_v3 : W2 m ρ c (Proc.devRef .tc main_v3) = W1 m ρ c (Proc.devRef .tc main_v3) :=
  W2_pre m ρ c main_v3 (by decide)
theorem W5_v3 : W5 m ρ c (Proc.devRef .tc main_v3) = W1 m ρ c (Proc.devRef .tc main_v3) :=
  W5_pre m ρ c main_v3 (by decide) (by decide) (by host_keeps hostOps1) (by decide)
theorem W8_v3 : W8 m ρ c (Proc.devRef .tc main_v3) = W1 m ρ c (Proc.devRef .tc main_v3) :=
  W8_pre m ρ c main_v3 (by decide) (by decide) (by host_keeps hostOps3) (by decide) (by decide) (by host_keeps hostOps1)
    (by decide)
theorem W2_v29 : W2 m ρ c (Proc.devRef .tc main_v29) = W1 m ρ c (Proc.devRef .tc main_v29) :=
  W2_pre m ρ c main_v29 (by decide)
theorem W5_v29 : W5 m ρ c (Proc.devRef .tc main_v29) = W1 m ρ c (Proc.devRef .tc main_v29) :=
  W5_pre m ρ c main_v29 (by decide) (by decide) (by host_keeps hostOps1) (by decide)
theorem W8_v29 : W8 m ρ c (Proc.devRef .tc main_v29) = W1 m ρ c (Proc.devRef .tc main_v29) :=
  W8_pre m ρ c main_v29 (by decide) (by decide) (by host_keeps hostOps3) (by decide) (by decide) (by host_keeps hostOps1)
    (by decide)
theorem W2_v31 : W2 m ρ c (Proc.devRef .tc main_v31) = W1 m ρ c (Proc.devRef .tc main_v31) :=
  W2_pre m ρ c main_v31 (by decide)
theorem W5_v31 : W5 m ρ c (Proc.devRef .tc main_v31) = W1 m ρ c (Proc.devRef .tc main_v31) :=
  W5_pre m ρ c main_v31 (by decide) (by decide) (by host_keeps hostOps1) (by decide)
theorem W8_v31 : W8 m ρ c (Proc.devRef .tc main_v31) = W1 m ρ c (Proc.devRef .tc main_v31) :=
  W8_pre m ρ c main_v31 (by decide) (by decide) (by host_keeps hostOps3) (by decide) (by decide) (by host_keeps hostOps1)
    (by decide)

end Cert.KernelIdeal.Kept

end
-- ==== Proof.Stage0.lean ====
/-
  The edge lists and the normalisation columns, as the first region finds them.

  Before its first region the kernel program applies to the edge-index argument the very operations the reference
  applies: the two rows of the edge index as vectors (sources, targets); the in-degree plus one by a scatter-add of
  ones at the targets (negative indices wrapped first); its reciprocal square root; that value gathered at the sources
  times the same gathered at the targets, kept as a column, one entry per edge; and its square, kept as a column, one
  entry per node. So each of the four buffers holds the reference's stage of the same name applied to the edge index.
-/
import proofs.«176993_j33165737459841_1_alg».proof.Proof.Gen.KernelIdeal.Frame
import proofs.«176993_j33165737459841_1_alg».proof.Proof.Gen.ReferenceIdeal.Read

set_option maxRecDepth 16384

noncomputable section

namespace Cert.KernelIdeal.Stage0

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The sources, one per edge. -/
theorem W1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  dsimp only [hostOps0]
  after_results_simp
  rfl

/-- The targets, one per edge. -/
theorem W1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  dsimp only [hostOps0]
  after_results_simp
  rfl

/-- The edge weights 1/sqrt(deg src) · 1/sqrt(deg dst), as a column. -/
theorem W1_v29 : W1 m ρ c (Proc.devRef .tc main_v29) = Cert.ReferenceIdeal.Read.val_main_v29 (F := Ideal) (m ((c : Thread nD τ).loc main_arg1)) := by
  show StableHlo.after hostOps0 (W0 m ρ c) (Proc.devRef .tc main_v29) = _
  dsimp only [hostOps0]
  after_results_simp
  rfl

/-- The self-loop weights 1/deg, as a column. -/
theorem W1_v31 : W1 m ρ c (Proc.devRef .tc main_v31) = Cert.ReferenceIdeal.Read.val_main_v31 (F := Ideal) (m ((c : Thread nD τ).loc main_arg1)) := by
  show StableHlo.after hostOps0 (W0 m ρ c) (Proc.devRef .tc main_v31) = _
  dsimp only [hostOps0]
  after_results_simp
  rfl

end Cert.KernelIdeal.Stage0

end
-- ==== Proof.Chain.lean ====
/-
  The kernel program's two results as the reference's stages of the arguments.

  Boundary by boundary through @main: a region's result array holds its layer of what the region found (the seven
  region modules), a stretch of host operations applies the reference's own operations to what the stretch found, and
  everything a later segment reads was left alone in between. Each step therefore rewrites the contents it starts
  from — already known as a stage of the reference applied to the arguments — and arrives at the next stage:

    x · W1,  the first aggregation,  tanh (· + b1),  · W2,  the second aggregation,  tanh (· + b2),  · W3,
    the third aggregation,  tanh (· + b3)  (the second result),  · Wc + bc  (the first result).

  An aggregation is, on both sides, the same host operations: the rows gathered at the edges' sources, scaled by the
  edge weights, scatter-added at the targets into zeros, plus the rows scaled by the self-loop weights.
-/
import proofs.«176993_j33165737459841_1_alg».proof.Proof.Gen.KernelIdeal.Frame
import proofs.«176993_j33165737459841_1_alg».proof.Proof.Gen.ReferenceIdeal.Read
import proofs.«176993_j33165737459841_1_alg».proof.Proof.Region0
import proofs.«176993_j33165737459841_1_alg».proof.Proof.Region1
import proofs.«176993_j33165737459841_1_alg».proof.Proof.Region2
import proofs.«176993_j33165737459841_1_alg».proof.Proof.Region3
import proofs.«176993_j33165737459841_1_alg».proof.Proof.Region4
import proofs.«176993_j33165737459841_1_alg».proof.Proof.Region5
import proofs.«176993_j33165737459841_1_alg».proof.Proof.Region6
import proofs.«176993_j33165737459841_1_alg».proof.Proof.Kept
import proofs.«176993_j33165737459841_1_alg».proof.Proof.Stage0

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- After region 0: x · W1. -/
theorem W2_v32 : W2 m ρ c (Proc.devRef .tc main_v32) = Cert.ReferenceIdeal.Read.val_main_v32 (F := Ideal) (m ((c : Thread nD τ).loc main_arg0)) (m ((c : Thread nD τ).loc main_arg2)) := by
  refine (W2_arr m ρ c 2).trans ((Region0.value (V1 m ρ) c).trans ?_)
  rw [show V1 m ρ c main_arg0 = (m ((c : Thread nD τ).loc main_arg0)) from Kept.W1_arg0 m ρ c,
    show V1 m ρ c main_arg2 = (m ((c : Thread nD τ).loc main_arg2)) from Kept.W1_arg2 m ρ c]
  rfl

/-- After the first aggregation. -/
theorem W3_v52 : W3 m ρ c (Proc.devRef .tc main_v52) = Cert.ReferenceIdeal.Read.val_main_v52 (F := Ideal) (m ((c : Thread nD τ).loc main_arg0)) (m ((c : Thread nD τ).loc main_arg1)) (m ((c : Thread nD τ).loc main_arg2)) := by
  show StableHlo.after hostOps1 (W2 m ρ c) (Proc.devRef .tc main_v52) = _
  dsimp only [hostOps1]
  after_results_simp
  rw [W2_v32 m ρ c, (Kept.W2_v1 m ρ c).trans (Stage0.W1_v1 m ρ c), (Kept.W2_v3 m ρ c).trans (Stage0.W1_v3 m ρ c), (Kept.W2_v29 m ρ c).trans (Stage0.W1_v29 m ρ c), (Kept.W2_v31 m ρ c).trans (Stage0.W1_v31 m ρ c)]
  rfl

/-- After region 1: tanh (· + b1). -/
theorem W4_v53 : W4 m ρ c (Proc.devRef .tc main_v53) = Cert.ReferenceIdeal.Read.val_main_v56 (F := Ideal) (m ((c : Thread nD τ).loc main_arg0)) (m ((c : Thread nD τ).loc main_arg1)) (m ((c : Thread nD τ).loc main_arg2)) (m ((c : Thread nD τ).loc main_arg3)) := by
  refine (W4_arr m ρ c 2).trans ((Region1.value (V3 m ρ) c).trans ?_)
  rw [show V3 m ρ c main_v52 = _ from W3_v52 m ρ c,
    show V3 m ρ c main_arg3 = (m ((c : Thread nD τ).loc main_arg3)) from Kept.W3_arg3 m ρ c]
  rfl

/-- After region 2: · W2. -/
theorem W5_v54 : W5 m ρ c (Proc.devRef .tc main_v54) = Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((Region2.value (V4 m ρ) c).trans ?_)
  rw [show V4 m ρ c main_v53 = _ from W4_v53 m ρ c,
    show V4 m ρ c main_arg4 = (m ((c : Thread nD τ).loc main_arg4)) from Kept.W4_arg4 m ρ c]
  rfl

/-- After the second aggregation. -/
theorem W6_v74 : W6 m ρ c (Proc.devRef .tc main_v74) = Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v74) = _
  dsimp only [hostOps3]
  after_results_simp
  rw [W5_v54 m ρ c, (Kept.W5_v1 m ρ c).trans (Stage0.W1_v1 m ρ c), (Kept.W5_v3 m ρ c).trans (Stage0.W1_v3 m ρ c), (Kept.W5_v29 m ρ c).trans (Stage0.W1_v29 m ρ c), (Kept.W5_v31 m ρ c).trans (Stage0.W1_v31 m ρ c)]
  rfl

/-- After region 3: tanh (· + b2). -/
theorem W7_v75 : W7 m ρ c (Proc.devRef .tc main_v75) = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ((Region3.value (V6 m ρ) c).trans ?_)
  rw [show V6 m ρ c main_v74 = _ from W6_v74 m ρ c,
    show V6 m ρ c main_arg5 = (m ((c : Thread nD τ).loc main_arg5)) from Kept.W6_arg5 m ρ c]
  rfl

/-- After region 4: · W3. -/
theorem W8_v76 : W8 m ρ c (Proc.devRef .tc main_v76) = Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ((Region4.value (V7 m ρ) c).trans ?_)
  rw [show V7 m ρ c main_v75 = _ from W7_v75 m ρ c,
    show V7 m ρ c main_arg6 = (m ((c : Thread nD τ).loc main_arg6)) from Kept.W7_arg6 m ρ c]
  rfl

/-- After the third aggregation. -/
theorem W9_v96 : W9 m ρ c (Proc.devRef .tc main_v96) = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W8 m ρ c) (Proc.devRef .tc main_v96) = _
  dsimp only [hostOps5]
  after_results_simp
  rw [W8_v76 m ρ c, (Kept.W8_v1 m ρ c).trans (Stage0.W1_v1 m ρ c), (Kept.W8_v3 m ρ c).trans (Stage0.W1_v3 m ρ c), (Kept.W8_v29 m ρ c).trans (Stage0.W1_v29 m ρ c), (Kept.W8_v31 m ρ c).trans (Stage0.W1_v31 m ρ c)]
  rfl

/-- After region 5: tanh (· + b3), the second result. -/
theorem W10_v97 : W10 m ρ c (Proc.devRef .tc main_v97) = Cert.ReferenceIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 2).trans ((Region5.value (V9 m ρ) c).trans ?_)
  rw [show V9 m ρ c main_v96 = _ from W9_v96 m ρ c,
    show V9 m ρ c main_arg7 = (m ((c : Thread nD τ).loc main_arg7)) from Kept.W9_arg7 m ρ c]
  rfl

/-- After region 6: · Wc + bc, the first result. -/
theorem W11_v98 : W11 m ρ c (Proc.devRef .tc main_v98) = Cert.ReferenceIdeal.Read.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W11_arr m ρ c 3).trans ((Region6.value (V10 m ρ) c).trans ?_)
  rw [show V10 m ρ c main_v97 = _ from W10_v97 m ρ c,
    show V10 m ρ c main_arg8 = (m ((c : Thread nD τ).loc main_arg8)) from Kept.W10_arg8 m ρ c,
    show V10 m ρ c main_arg9 = (m ((c : Thread nD τ).loc main_arg9)) from Kept.W10_arg9 m ρ c]
  rfl

/-- Region 6 reads the second result through an input window and leaves it as it found it. -/
theorem W11_v97 : W11 m ρ c (Proc.devRef .tc main_v97) = Cert.ReferenceIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W11_arr m ρ c 0).trans (((dat6 (V10 m ρ) c).arrAt_in 0 rfl _).trans ((A_eq6 (V10 m ρ) c 0).trans (W10_v97 m ρ c)))

end Cert.KernelIdeal.Chain

end
-- ==== Proof.lean ====
/-
  A three-layer graph convolution (100000 nodes, 3200000 edges, feature widths 128 → 4 → 4 → 2) and a linear classifier
  (2 → 7), as a kernel program of seven pipelined regions among host operations, against a reference of host
  operations only.

  Both programs compute, from the edge index, the in-degree plus one of every node, its reciprocal square root d, the
  edge weights d(src) · d(dst) and the self-loop weights d², by the same host operations. A layer is then

      h ↦ tanh (A(h · W) + b),    A(y) = scatter-add over the edges of y(src) · weight into zeros at dst, plus y · d²,

  where the kernel program computes h · W in one region (the matrix unit's product into a zero accumulator, block of
  10000 rows by block) and tanh (· + b) in another, and the aggregation A on the host, operation for operation as the
  reference does; the reference computes h · W by dot_general and the rest by elementwise host operations. The
  classifier h · Wc + bc is one more region against dot_general plus a broadcast bias. The results are the classifier's
  output and the last layer's activations.

  Over the extended reals a change of float format is the identity, the matrix unit's product into zeros and the
  host's dot_general are the same row-by-column sums, and tanh, the sum with the bias and the aggregation are the same
  expressions on both sides. So each region's result array is the reference's operation applied to what the region
  found (modules Region0 … Region6), the host stretches in between are the reference's own operations (module Chain),
  and the two programs' results are one function of the arguments; no property of the inputs is used.

  The three frames are the generated ones (the reference's: its generated run with the results dropped); nothing was
  rewritten when the kernel was idealized, so there is nothing to preserve.
-/
import proofs.«176993_j33165737459841_1_alg».proof.Defs
import proofs.«176993_j33165737459841_1_alg».proof.Proof.Gen.Kernel
import proofs.«176993_j33165737459841_1_alg».proof.Proof.Gen.Kernel.Skeleton
import proofs.«176993_j33165737459841_1_alg».proof.Proof.Gen.Kernel.Launch
import proofs.«176993_j33165737459841_1_alg».proof.Proof.Gen.Kernel.Points
import proofs.«176993_j33165737459841_1_alg».proof.Proof.Gen.Kernel.Frame
import proofs.«176993_j33165737459841_1_alg».proof.Proof.Gen.KernelIdeal
import proofs.«176993_j33165737459841_1_alg».proof.Proof.Gen.KernelIdeal.Skeleton
import proofs.«176993_j33165737459841_1_alg».proof.Proof.Gen.KernelIdeal.Launch
import proofs.«176993_j33165737459841_1_alg».proof.Proof.Gen.KernelIdeal.Points
import proofs.«176993_j33165737459841_1_alg».proof.Proof.Gen.KernelIdeal.Frame
import proofs.«176993_j33165737459841_1_alg».proof.Proof.Gen.ReferenceIdeal
import proofs.«176993_j33165737459841_1_alg».proof.Proof.Gen.ReferenceIdeal.Run
import proofs.«176993_j33165737459841_1_alg».proof.Proof.Gen.ReferenceIdeal.Read
import proofs.«176993_j33165737459841_1_alg».proof.Proof.Gen.Pre_finite_inputs
import proofs.«176993_j33165737459841_1_alg».proof.Proof.KernelRun
import proofs.«176993_j33165737459841_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's generated run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the classifier's output and the last activations at the reference's stages of the
    arguments: the kernel program by its run read boundary by boundary, the reference by its generated run, the
    arguments agreeing. -/
theorem algebraic : Cert.algebraic_KernelIdeal_ReferenceIdeal := by
  intro m ρ m' ρ' _ hagree
  refine ⟨fun c => Cert.ReferenceIdeal.Read.val_main_v110 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v106 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun _ h c => ?_) (Cert.KernelIdeal.Run.run (F := Ideal) m ρ)
    exact ⟨(h c).1.trans (Cert.KernelIdeal.Chain.W11_v98 m ρ c), (h c).2.1.trans (Cert.KernelIdeal.Chain.W11_v97 m ρ c),
      (h c).2.2⟩
  · refine (θ_run Cert.ReferenceIdeal.defs _ _).mono (fun _ h c => ?_)
      (Cert.ReferenceIdeal.Value.run (F := Ideal) m' ρ')
    obtain ⟨e0, e1, e2, e3, e4, e5, e6, e7, e8, e9⟩ := hagree c
    refine ⟨(h c).1.trans ?_, (h c).2.1.trans ?_, (h c).2.2⟩
    · rw [Cert.ReferenceIdeal.Read.val_main_v110_eq, e0, e1, e2, e3, e4, e5, e6, e7, e8, e9]
    · rw [Cert.ReferenceIdeal.Read.val_main_v106_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
